-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S1600000 : Shape := ⟨1, ![1600000]⟩
abbrev S200000 : Shape := ⟨1, ![200000]⟩
abbrev S512x64 : Shape := ⟨2, ![512, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S200000 : S_.BroadcastsInDim S200000 (![] : Fin 0 → Fin S200000.rank)
  reducesTo_S200000_S_d0 : S200000.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg8 : FVec F S64 .f32) (main_arg9 : FVec F S64x40 .f32) (main_arg10 : FVec F S40 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S64 .f32 := Host.absf main_arg8
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x40 .f32 := Host.absf main_arg9
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg10
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x512 .f32) (main_arg1 : IVec S1600000 32) (main_arg2 : IVec S1600000 32) (main_arg3 : FVec F S1600000 .f32) (main_arg4 : IVec S200000 32) (main_arg5 : IVec S200000 32) (main_arg6 : FVec F S200000 .f32) (main_arg7 : FVec F S512x64 .f32) (main_arg8 : FVec F S64 .f32) (main_arg9 : FVec F S64x40 .f32) (main_arg10 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S200000 .f32 := Host.absf main_arg6
  let main_cst_2 : FVec F S_ .f32 := constant S_ .f32 0x7F800000#32
  let main_v10 : FVec F S200000 .f32 := broadcastInDim S200000 ![] bcast_S_S200000 main_cst_2
  let main_v11 : IVec S200000 1 := cmpf .olt main_v9 main_v10
  let main_c_3 : IVec S_ 1 := constantI S_ 1 1#1
  let main_v12 : IVec S_ 1 := (fun x v => Host.reduce IntOp.andi x v reducesTo_S200000_S_d0 h_S_) main_v11 main_c_3
  let main_v13 : IVec S_ 1 := andi main_v8 main_v12
  let main_v14 : FVec F S512x64 .f32 := Host.absf main_arg7
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg8 main_arg9 main_arg10 main_v13 main_v16
-- ==== Kernel.lean ====
abbrev S100000x512 : Shape := ⟨2, ![100000, 512]⟩
abbrev S1600000 : Shape := ⟨1, ![1600000]⟩
abbrev S200000 : Shape := ⟨1, ![200000]⟩
abbrev S512x64 : Shape := ⟨2, ![512, 64]⟩
abbrev S64 : Shape := ⟨1, ![64]⟩
abbrev S64x40 : Shape := ⟨2, ![64, 40]⟩
abbrev S40 : Shape := ⟨1, ![40]⟩
abbrev S1x64 : Shape := ⟨2, ![1, 64]⟩
abbrev S1x40 : Shape := ⟨2, ![1, 40]⟩
abbrev S100000x64 : Shape := ⟨2, ![100000, 64]⟩
abbrev S4000x512 : Shape := ⟨2, ![4000, 512]⟩
abbrev S4000x64 : Shape := ⟨2, ![4000, 64]⟩
abbrev S1600000x1 : Shape := ⟨2, ![1600000, 1]⟩
abbrev S_ : Shape := ⟨0, ![]⟩
abbrev S1600000x64 : Shape := ⟨2, ![1600000, 64]⟩
abbrev S10000x64 : Shape := ⟨2, ![10000, 64]⟩
abbrev S100000x40 : Shape := ⟨2, ![100000, 40]⟩
abbrev S10000x40 : Shape := ⟨2, ![10000, 40]⟩
abbrev S1600000x40 : Shape := ⟨2, ![1600000, 40]⟩
abbrev S200000x1 : Shape := ⟨2, ![200000, 1]⟩
abbrev S200000x40 : Shape := ⟨2, ![200000, 40]⟩
abbrev S10000 : Shape := ⟨1, ![10000]⟩
abbrev S10000x1 : Shape := ⟨2, ![10000, 1]⟩

abbrev nBuf : Space → Nat
  | .hbm => 68
  | .vmem => 24
  | .smem => 0
  | _ => 0

abbrev bufTy : (tb : Table) → Fin (tcTables nBuf tb) → BufTy
  | .hbm, ⟨0, _⟩ => ⟨S100000x512, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S200000, .i32⟩
  | .hbm, ⟨5, _⟩ => ⟨S200000, .i32⟩
  | .hbm, ⟨6, _⟩ => ⟨S200000, .f32⟩
  | .hbm, ⟨7, _⟩ => ⟨S512x64, .f32⟩
  | .hbm, ⟨8, _⟩ => ⟨S64, .f32⟩
  | .hbm, ⟨9, _⟩ => ⟨S64x40, .f32⟩
  | .hbm, ⟨10, _⟩ => ⟨S40, .f32⟩
  | .hbm, ⟨11, _⟩ => ⟨S512x64, .bf16⟩
  | .hbm, ⟨12, _⟩ => ⟨S64x40, .bf16⟩
  | .hbm, ⟨13, _⟩ => ⟨S1x64, .f32⟩
  | .hbm, ⟨14, _⟩ => ⟨S1x40, .f32⟩
  | .hbm, ⟨15, _⟩ => ⟨S100000x64, .f32⟩
  | .hbm, ⟨16, _⟩ => ⟨S1600000x1, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x64, .f32⟩
  | .hbm, ⟨26, _⟩ => ⟨S1600000x64, .f32⟩
  | .hbm, ⟨27, _⟩ => ⟨S1600000x64, .f32⟩
  | .hbm, ⟨28, _⟩ => ⟨S_, .f32⟩
  | .hbm, ⟨29, _⟩ => ⟨S100000x64, .f32⟩
  | .hbm, ⟨30, _⟩ => ⟨S1600000x1, .i32⟩
  | .hbm, ⟨31, _⟩ => ⟨S100000x64, .f32⟩
  | .hbm, ⟨32, _⟩ => ⟨S100000x64, .bf16⟩
  | .hbm, ⟨33, _⟩ => ⟨S100000x40, .f32⟩
  | .hbm, ⟨34, _⟩ => ⟨S1600000x1, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x40, .f32⟩
  | .hbm, ⟨44, _⟩ => ⟨S1600000x40, .f32⟩
  | .hbm, ⟨45, _⟩ => ⟨S1600000x40, .f32⟩
  | .hbm, ⟨46, _⟩ => ⟨S_, .f32⟩
  | .hbm, ⟨47, _⟩ => ⟨S100000x40, .f32⟩
  | .hbm, ⟨48, _⟩ => ⟨S1600000x1, .i32⟩
  | .hbm, ⟨49, _⟩ => ⟨S100000x40, .f32⟩
  | .hbm, ⟨50, _⟩ => ⟨S100000x40, .f32⟩
  | .hbm, ⟨51, _⟩ => ⟨S200000x1, .f32⟩
  | .hbm, ⟨52, _⟩ => ⟨S_, .i32⟩
  | .hbm, ⟨53, _⟩ => ⟨S200000, .i32⟩
  | .hbm, ⟨54, _⟩ => ⟨S200000, .i1⟩
  | .hbm, ⟨55, _⟩ => ⟨S_, .i32⟩
  | .hbm, ⟨56, _⟩ => ⟨S200000, .i32⟩
  | .hbm, ⟨57, _⟩ => ⟨S200000, .i32⟩
  | .hbm, ⟨58, _⟩ => ⟨S200000, .i32⟩
  | .hbm, ⟨59, _⟩ => ⟨S200000x1, .i32⟩
  | .hbm, ⟨60, _⟩ => ⟨S200000x40, .f32⟩
  | .hbm, ⟨61, _⟩ => ⟨S200000x40, .f32⟩
  | .hbm, ⟨62, _⟩ => ⟨S200000x40, .f32⟩
  | .hbm, ⟨63, _⟩ => ⟨S_, .f32⟩
  | .hbm, ⟨64, _⟩ => ⟨S100000x40, .f32⟩
  | .hbm, ⟨65, _⟩ => ⟨S200000x1, .i32⟩
  | .hbm, ⟨66, _⟩ => ⟨S100000x40, .f32⟩
  | .hbm, ⟨67, _⟩ => ⟨S100000x40, .f32⟩
  | .local _ .vmem, ⟨0, _⟩ => ⟨S4000x512, .f32⟩
  | .local _ .vmem, ⟨1, _⟩ => ⟨S4000x512, .f32⟩
  | .local _ .vmem, ⟨2, _⟩ => ⟨S512x64, .bf16⟩
  | .local _ .vmem, ⟨3, _⟩ => ⟨S4000x64, .f32⟩
  | .local _ .vmem, ⟨4, _⟩ => ⟨S4000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .bf16⟩
  | .local _ .vmem, ⟨9, _⟩ => ⟨S10000x64, .bf16⟩
  | .local _ .vmem, ⟨10, _⟩ => ⟨S10000x64, .bf16⟩
  | .local _ .vmem, ⟨11, _⟩ => ⟨S10000x64, .bf16⟩
  | .local _ .vmem, ⟨12, _⟩ => ⟨S64x40, .bf16⟩
  | .local _ .vmem, ⟨13, _⟩ => ⟨S10000x40, .f32⟩
  | .local _ .vmem, ⟨14, _⟩ => ⟨S10000x40, .f32⟩
  | .local _ .vmem, ⟨15, _⟩ => ⟨S10000x40, .f32⟩
  | .local _ .vmem, ⟨16, _⟩ => ⟨S10000x40, .f32⟩
  | .local _ .vmem, ⟨17, _⟩ => ⟨S1x40, .f32⟩
  | .local _ .vmem, ⟨18, _⟩ => ⟨S10000x40, .f32⟩
  | .local _ .vmem, ⟨19, _⟩ => ⟨S10000x40, .f32⟩
  | .local _ .vmem, ⟨20, _⟩ => ⟨S10000x40, .f32⟩
  | .local _ .vmem, ⟨21, _⟩ => ⟨S10000x40, .f32⟩
  | .local _ .vmem, ⟨22, _⟩ => ⟨S10000x40, .f32⟩
  | .local _ .vmem, ⟨23, _⟩ => ⟨S10000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_1 : Ref sig .tc := ⟨.hbm, 35, rfl⟩
abbrev main_v21 : Ref sig .tc := ⟨.hbm, 36, rfl⟩
abbrev main_v22 : Ref sig .tc := ⟨.hbm, 37, rfl⟩
abbrev main_c_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_4 : Ref sig .tc := ⟨.hbm, 52, rfl⟩
abbrev main_v35 : Ref sig .tc := ⟨.hbm, 53, rfl⟩
abbrev main_v36 : Ref sig .tc := ⟨.hbm, 54, rfl⟩
abbrev main_c_5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x40 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x40 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x40 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

class Facts₀ : Prop where
  bitsLt_bf16_f32 : FTy.bits .bf16 < FTy.bits .f32
  shapeCasts_S64_S1x64 : S64.ShapeCasts S1x64
  shapeCasts_S40_S1x40 : S40.ShapeCasts S1x40
  inb_S4000x512_S4000x512_0_0 : ∀ a, (![0, 0] : Fin 2 → Nat) a + S4000x512.size a ≤ S4000x512.size a
  h_S4000x512 : 0 < S4000x512.numel
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S4000x64_S4000x64_0_0 : ∀ a, (![0, 0] : Fin 2 → Nat) a + S4000x64.size a ≤ S4000x64.size a
  h_S4000x64 : 0 < S4000x64.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  packedbf16_S10000x64_S10000x64_0_0 : (Rect.unit (s := S10000x64) ![0, 0] S10000x64.size inb_S10000x64_S10000x64_0_0).PackedRows (EltTy.packing .bf16)
  inb_S64x40_S64x40_0_0 : ∀ a, (![0, 0] : Fin 2 → Nat) a + S64x40.size a ≤ S64x40.size a
  h_S64x40 : 0 < S64x40.numel
  shapeCasts_S64x40_S64x40 : S64x40.ShapeCasts S64x40
  inb_S10000x40_S10000x40_0_0 : ∀ a, (![0, 0] : Fin 2 → Nat) a + S10000x40.size a ≤ S10000x40.size a
  h_S10000x40 : 0 < S10000x40.numel
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  bcast_S200000_S200000x1_0 : S200000.BroadcastsInDim S200000x1 (![0] : Fin 1 → Fin S200000x1.rank)
  bcast_S_S200000 : S_.BroadcastsInDim S200000 (![] : Fin 0 → Fin S200000.rank)
  bcast_S200000x1_S200000x40_0_1 : S200000x1.BroadcastsInDim S200000x40 (![0, 1] : Fin 2 → Fin S200000x40.rank)
  reduces_S10000x40_S10000 : S10000x40.Reduces [1] S10000
  shapeCasts_S10000_S10000x1 : S10000.ShapeCasts S10000x1
  broadcasts_S10000x1_S10000x40 : S10000x1.Broadcasts S10000x40
  dot_S4000x512_S512x64_S4000x64_1_0_0_1_n_n_wf : DotDims.WF S4000x512 S512x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x40_S10000x40_1_0_0_1_n_n_wf : DotDims.WF S10000x64 S64x40 S10000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  gather_S100000x40_S200000x1_S200000x40_1_0_n_n_0_1_140_wf : GatherDims.WF S100000x40 S200000x1 S200000x40 [1] [0] [] [0] [] 1 ![1, 40]
  scatter_S100000x40_S200000x1_S200000x40_1_0_0_1_wf : ScatterDims.WF S100000x40 S200000x1 S200000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .bf16 = 32 ∨ (Rect.block (s := S512x64) S512x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .bf16 = 32 ∨ (Rect.block (s := S100000x64) S10000x64.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .bf16 = 32 ∨ (Rect.block (s := S100000x64) S10000x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40.size a ≤ S64x40.size a
  hwx2_1 : ∀ i : grid2.Coords, EltTy.bits .bf16 = 32 ∨ (Rect.block (s := S64x40) S64x40.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x40.size a ≤ S100000x40.size a
  hwx2_2 : ∀ i : grid2.Coords, EltTy.bits .f32 = 32 ∨ (Rect.block (s := S100000x40) S10000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x40.size a ≤ S100000x40.size a
  hwx3_0 : ∀ i : grid3.Coords, EltTy.bits .f32 = 32 ∨ (Rect.block (s := S100000x40) S10000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x40.size a ≤ S100000x40.size a
  hwx3_2 : ∀ i : grid3.Coords, EltTy.bits .f32 = 32 ∨ (Rect.block (s := S100000x40) S10000x40.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x40.size a ≤ S100000x40.size a
  hwx4_0 : ∀ i : grid4.Coords, EltTy.bits .f32 = 32 ∨ (Rect.block (s := S100000x40) S10000x40.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x40.size a ≤ S100000x40.size a
  hwx4_1 : ∀ i : grid4.Coords, EltTy.bits .f32 = 32 ∨ (Rect.block (s := S100000x40) S10000x40.size (cc4_transform_1 i) (hinb4_1 i)).WholeWords (EltTy.packing .f32)

variable [Facts₀]

def dot_S4000x512_S512x64_S4000x64_1_0_0_1_n_n : DotDims S4000x512 S512x64 S4000x64 where
  lhsContracting := [1]
  rhsContracting := [0]
  lhsNonContracting := [0]
  rhsNonContracting := [1]
  lhsBatch := []
  rhsBatch := []
  wf := dot_S4000x512_S512x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf
def gather_S100000x40_S200000x1_S200000x40_1_0_n_n_0_1_140 : GatherDims S100000x40 S200000x1 S200000x40 where
  offsetDims := [1]
  collapsedSliceDims := [0]
  operandBatchingDims := []
  startIndicesBatchingDims := []
  startIndexMap := [0]
  indexVectorDim := 1
  sliceSizes := ![1, 40]
  wf := gather_S100000x40_S200000x1_S200000x40_1_0_n_n_0_1_140_wf
def scatter_S100000x40_S200000x1_S200000x40_1_0_0_1 : ScatterDims S100000x40 S200000x1 S200000x40 where
  updateWindowDims := [1]
  insertedWindowDims := [0]
  scatterDimsToOperandDims := [0]
  indexVectorDim := 1
  wf := scatter_S100000x40_S200000x1_S200000x40_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v18) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S64x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S10000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v32) S10000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v33) S10000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v46) S10000x40.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v47) S10000x40.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

class Facts : Prop extends Facts₀ where

variable [Facts]
-- ==== ReferenceIdeal.lean ====
abbrev S100000x512 : Shape := ⟨2, ![100000, 512]⟩
abbrev S1600000 : Shape := ⟨1, ![1600000]⟩
abbrev S200000 : Shape := ⟨1, ![200000]⟩
abbrev S512x64 : Shape := ⟨2, ![512, 64]⟩
abbrev S64 : Shape := ⟨1, ![64]⟩
abbrev S64x40 : Shape := ⟨2, ![64, 40]⟩
abbrev S40 : Shape := ⟨1, ![40]⟩
abbrev S100000x64 : Shape := ⟨2, ![100000, 64]⟩
abbrev S1600000x1 : Shape := ⟨2, ![1600000, 1]⟩
abbrev S_ : Shape := ⟨0, ![]⟩
abbrev S1600000x64 : Shape := ⟨2, ![1600000, 64]⟩
abbrev S1x64 : Shape := ⟨2, ![1, 64]⟩
abbrev S100000x40 : Shape := ⟨2, ![100000, 40]⟩
abbrev S1600000x40 : Shape := ⟨2, ![1600000, 40]⟩
abbrev S1x40 : Shape := ⟨2, ![1, 40]⟩
abbrev S200000x1 : Shape := ⟨2, ![200000, 1]⟩
abbrev S200000x40 : Shape := ⟨2, ![200000, 40]⟩
abbrev S100000 : Shape := ⟨1, ![100000]⟩
abbrev S100000x1 : Shape := ⟨2, ![100000, 1]⟩

abbrev nBuf : Space → Nat
  | .hbm => 85
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S200000, .i32⟩
  | .hbm, ⟨5, _⟩ => ⟨S200000, .i32⟩
  | .hbm, ⟨6, _⟩ => ⟨S200000, .f32⟩
  | .hbm, ⟨7, _⟩ => ⟨S512x64, .f32⟩
  | .hbm, ⟨8, _⟩ => ⟨S64, .f32⟩
  | .hbm, ⟨9, _⟩ => ⟨S64x40, .f32⟩
  | .hbm, ⟨10, _⟩ => ⟨S40, .f32⟩
  | .hbm, ⟨11, _⟩ => ⟨S100000x64, .f32⟩
  | .hbm, ⟨12, _⟩ => ⟨S1600000x1, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S1600000x64, .f32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S1x64, .f32⟩
  | .hbm, ⟨29, _⟩ => ⟨S100000x64, .f32⟩
  | .hbm, ⟨30, _⟩ => ⟨S100000x64, .f32⟩
  | .hbm, ⟨31, _⟩ => ⟨S_, .f32⟩
  | .hbm, ⟨32, _⟩ => ⟨S100000x64, .f32⟩
  | .hbm, ⟨33, _⟩ => ⟨S100000x64, .f32⟩
  | .hbm, ⟨34, _⟩ => ⟨S100000x40, .f32⟩
  | .hbm, ⟨35, _⟩ => ⟨S1600000x1, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x40, .f32⟩
  | .hbm, ⟨45, _⟩ => ⟨S1600000x40, .f32⟩
  | .hbm, ⟨46, _⟩ => ⟨S1600000x40, .f32⟩
  | .hbm, ⟨47, _⟩ => ⟨S_, .f32⟩
  | .hbm, ⟨48, _⟩ => ⟨S100000x40, .f32⟩
  | .hbm, ⟨49, _⟩ => ⟨S1600000x1, .i32⟩
  | .hbm, ⟨50, _⟩ => ⟨S100000x40, .f32⟩
  | .hbm, ⟨51, _⟩ => ⟨S1x40, .f32⟩
  | .hbm, ⟨52, _⟩ => ⟨S100000x40, .f32⟩
  | .hbm, ⟨53, _⟩ => ⟨S100000x40, .f32⟩
  | .hbm, ⟨54, _⟩ => ⟨S200000x1, .f32⟩
  | .hbm, ⟨55, _⟩ => ⟨S_, .i32⟩
  | .hbm, ⟨56, _⟩ => ⟨S200000, .i32⟩
  | .hbm, ⟨57, _⟩ => ⟨S200000, .i1⟩
  | .hbm, ⟨58, _⟩ => ⟨S_, .i32⟩
  | .hbm, ⟨59, _⟩ => ⟨S200000, .i32⟩
  | .hbm, ⟨60, _⟩ => ⟨S200000, .i32⟩
  | .hbm, ⟨61, _⟩ => ⟨S200000, .i32⟩
  | .hbm, ⟨62, _⟩ => ⟨S200000x1, .i32⟩
  | .hbm, ⟨63, _⟩ => ⟨S200000x40, .f32⟩
  | .hbm, ⟨64, _⟩ => ⟨S200000x40, .f32⟩
  | .hbm, ⟨65, _⟩ => ⟨S200000x40, .f32⟩
  | .hbm, ⟨66, _⟩ => ⟨S_, .f32⟩
  | .hbm, ⟨67, _⟩ => ⟨S100000x40, .f32⟩
  | .hbm, ⟨68, _⟩ => ⟨S200000x1, .i32⟩
  | .hbm, ⟨69, _⟩ => ⟨S100000x40, .f32⟩
  | .hbm, ⟨70, _⟩ => ⟨S_, .f32⟩
  | .hbm, ⟨71, _⟩ => ⟨S100000, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000x1, .f32⟩
  | .hbm, ⟨76, _⟩ => ⟨S100000x40, .f32⟩
  | .hbm, ⟨77, _⟩ => ⟨S100000x40, .f32⟩
  | .hbm, ⟨78, _⟩ => ⟨S100000x40, .f32⟩
  | .hbm, ⟨79, _⟩ => ⟨S_, .f32⟩
  | .hbm, ⟨80, _⟩ => ⟨S100000, .f32⟩
  | .hbm, ⟨81, _⟩ => ⟨S100000x1, .f32⟩
  | .hbm, ⟨82, _⟩ => ⟨S100000x1, .f32⟩
  | .hbm, ⟨83, _⟩ => ⟨S100000x40, .f32⟩
  | .hbm, ⟨84, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call0_cst : Ref sig .tc := ⟨.hbm, 31, rfl⟩
abbrev main_call0_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_1 : Ref sig .tc := ⟨.hbm, 36, rfl⟩
abbrev main_v20 : Ref sig .tc := ⟨.hbm, 37, rfl⟩
abbrev main_v21 : Ref sig .tc := ⟨.hbm, 38, rfl⟩
abbrev main_c_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_4 : Ref sig .tc := ⟨.hbm, 55, rfl⟩
abbrev main_v36 : Ref sig .tc := ⟨.hbm, 56, rfl⟩
abbrev main_v37 : Ref sig .tc := ⟨.hbm, 57, rfl⟩
abbrev main_c_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_cst : Ref sig .tc := ⟨.hbm, 70, rfl⟩
abbrev main_call1_v0 : Ref sig .tc := ⟨.hbm, 71, rfl⟩
abbrev main_call1_cst_0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_v6 : Ref sig .tc := ⟨.hbm, 78, rfl⟩
abbrev main_call1_cst_1 : Ref sig .tc := ⟨.hbm, 79, rfl⟩
abbrev main_call1_v7 : Ref sig .tc := ⟨.hbm, 80, rfl⟩
abbrev main_call1_v8 : Ref sig .tc := ⟨.hbm, 81, rfl⟩
abbrev main_call1_v9 : Ref sig .tc := ⟨.hbm, 82, rfl⟩
abbrev main_call1_v10 : Ref sig .tc := ⟨.hbm, 83, rfl⟩
abbrev main_v48 : Ref sig .tc := ⟨.hbm, 84, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  bcast_S200000_S200000x1_0 : S200000.BroadcastsInDim S200000x1 (![0] : Fin 1 → Fin S200000x1.rank)
  bcast_S_S200000 : S_.BroadcastsInDim S200000 (![] : Fin 0 → Fin S200000.rank)
  bcast_S200000x1_S200000x40_0_1 : S200000x1.BroadcastsInDim S200000x40 (![0, 1] : Fin 2 → Fin S200000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x512_S512x64_S100000x64_1_0_0_1_n_n_wf : DotDims.WF S100000x512 S512x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x40_S100000x40_1_0_0_1_n_n_wf : DotDims.WF S100000x64 S64x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  gather_S100000x40_S200000x1_S200000x40_1_0_n_n_0_1_140_wf : GatherDims.WF S100000x40 S200000x1 S200000x40 [1] [0] [] [0] [] 1 ![1, 40]
  scatter_S100000x40_S200000x1_S200000x40_1_0_0_1_wf : ScatterDims.WF S100000x40 S200000x1 S200000x40 [1] [0] [0] 1

variable [Facts₀]

def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf
def gather_S100000x40_S200000x1_S200000x40_1_0_n_n_0_1_140 : GatherDims S100000x40 S200000x1 S200000x40 where
  offsetDims := [1]
  collapsedSliceDims := [0]
  operandBatchingDims := []
  startIndicesBatchingDims := []
  startIndexMap := [0]
  indexVectorDim := 1
  sliceSizes := ![1, 40]
  wf := gather_S100000x40_S200000x1_S200000x40_1_0_n_n_0_1_140_wf
def scatter_S100000x40_S200000x1_S200000x40_1_0_0_1 : ScatterDims S100000x40 S200000x1 S200000x40 where
  updateWindowDims := [1]
  insertedWindowDims := [0]
  scatterDimsToOperandDims := [0]
  indexVectorDim := 1
  wf := scatter_S100000x40_S200000x1_S200000x40_1_0_0_1_wf

class Facts : Prop extends Facts₀ where

variable [Facts]
-- ==== Proof.Spec.lean ====
/-
  The specification: a two-layer graph convolution followed by a sparse product and a row-wise log-softmax,
  stage by stage, over the extended reals.

  The dense stages are written index by index.  `matProd X W` is the row-by-column product
  (X W)(r, c) = Σ_k X(r, k) · W(k, c); `addRow S b` adds the one-row matrix `b` to every row of `S`;
  `relu` is the maximum with 0; `logSoftmax O` subtracts from each entry its row's maximum and then the
  logarithm of the row's sum of exponentials of the shifted entries.

  The sparse product `spmm` is NOT opened here.  Both programs compute it by the same host operations — a
  lookup of whole rows of the dense operand at the edge list's column numbers (a negative number counted from
  the end), each row scaled by its edge's weight, accumulated into a zero matrix at the edge's row number —
  and it is carried through the proof as that one composite, applied to equal operands.
-/
import proofs.«157696_j36283883717325_1_alg».proof.Proof.Gen.KernelIdeal
import Idealize.ShloMosaic.PureOps.Ideal
import Idealize.ShloMosaic.Lib.ValueIdx

noncomputable section

namespace Cert.Gcn

open Idealize.ShloMosaic Idealize.ShloMosaic.ValueIdx Cert.KernelIdeal Cert.KernelIdeal.Gen
open scoped BigOperators

/-- A matrix of extended reals with `a` rows and `b` columns. -/
abbrev Mat (a b : Nat) : Type := (⟨2, ![a, b]⟩ : Shape).Idx → EReal

/-- The row number of a matrix index, typed at the number of rows. -/
abbrev rowOf {a b : Nat} (i : (⟨2, ![a, b]⟩ : Shape).Idx) : Fin a := ⟨(i 0).val, idx2_lt0 i⟩
/-- The column number of a matrix index, typed at the number of columns. -/
abbrev colOf {a b : Nat} (i : (⟨2, ![a, b]⟩ : Shape).Idx) : Fin b := ⟨(i 1).val, idx2_lt1 i⟩

theorem rowOf_ix2 {a b : Nat} (p : Fin a) (q : Fin b) : rowOf (ix2 p q) = p := rfl
theorem colOf_ix2 {a b : Nat} (p : Fin a) (q : Fin b) : colOf (ix2 p q) = q := rfl

/-- The row-by-column product: (X W)(r, c) = Σ_k X(r, k) · W(k, c). -/
def matProd {n k l : Nat} (X : Mat n k) (W : Mat k l) : Mat n l :=
  fun i => ∑ j : Fin k, X (ix2 (rowOf i) j) * W (ix2 j (colOf i))

/-- A one-row matrix added to every row. -/
def addRow {n l : Nat} (S : Mat n l) (b : Mat 1 l) : Mat n l :=
  fun i => S i + b (ix2 (0 : Fin 1) (colOf i))

/-- The maximum with zero, entry by entry. -/
def relu {n l : Nat} (S : Mat n l) : Mat n l := fun i => max (S i) 0

/-- The largest entry of row `r` (the fold of `max` from -∞ over the row's columns). -/
def rowMax {n l : Nat} (O : Mat n l) (r : Fin n) : EReal :=
  (Finset.univ : Finset (Fin l)).fold max ⊥ (fun j => O (ix2 r j))

/-- The row-wise log-softmax: each entry less its row's maximum, less the logarithm of the row's sum of the
    exponentials of the entries so shifted. -/
def logSoftmax {n l : Nat} (O : Mat n l) : Mat n l :=
  fun i => (O i - rowMax O (rowOf i))
    - Ideal.log (∑ j : Fin l, Ideal.exp (O (ix2 (rowOf i) j) - rowMax O (rowOf i)))

/-- A vector laid out as a one-row matrix. -/
def asRow {l : Nat} (b : (⟨1, ![l]⟩ : Shape).Idx → EReal) : Mat 1 l := fun i => b (ix1 (colOf i))

/-- The edge list's column numbers with a negative number counted from the end of the 100000 rows. -/
def wrapA (colN : IVec S1600000 32) : IVec S1600000 32 :=
  select (cmpi .slt colN (broadcastInDim S1600000 ![] bcast_S_S1600000 (constantI S_ 32 0#32)))
    (addi colN (broadcastInDim S1600000 ![] bcast_S_S1600000 (constantI S_ 32 100000#32))) colN

/-- The same for the second, shorter edge list. -/
def wrapP (colN : IVec S200000 32) : IVec S200000 32 :=
  select (cmpi .slt colN (broadcastInDim S200000 ![] bcast_S_S200000 (constantI S_ 32 0#32)))
    (addi colN (broadcastInDim S200000 ![] bcast_S_S200000 (constantI S_ 32 100000#32))) colN

/-- The sparse product of the first edge list with a dense matrix of 64 columns: rows of `D` looked up at the
    column numbers, scaled by the edge weights, accumulated into zero at the row numbers. -/
def spmm64 (rowN colN : IVec S1600000 32) (w : FVec Ideal S1600000 .f32) (D : FVec Ideal S100000x64 .f32) :
    FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 rowN)
    (mulf (broadcastInDim S1600000x64 ![0, 1] bcast_S1600000x1_S1600000x64_0_1
        (broadcastInDim S1600000x1 ![0] bcast_S1600000_S1600000x1_0 w))
      (Host.gather gather_S100000x64_S1600000x1_S1600000x64_1_0_n_n_0_1_164 D
        (broadcastInDim S1600000x1 ![0] bcast_S1600000_S1600000x1_0 (wrapA colN))))

/-- The same sparse product with a dense matrix of 40 columns. -/
def spmm40 (rowN colN : IVec S1600000 32) (w : FVec Ideal S1600000 .f32) (D : FVec Ideal S100000x40 .f32) :
    FVec Ideal S100000x40 .f32 :=
  Host.scatterAdd scatter_S100000x40_S1600000x1_S1600000x40_1_0_0_1
    (broadcastInDim S100000x40 ![] bcast_S_S100000x40 (constant (F := Ideal) S_ .f32 0x00000000#32))
    (broadcastInDim S1600000x1 ![0] bcast_S1600000_S1600000x1_0 rowN)
    (mulf (broadcastInDim S1600000x40 ![0, 1] bcast_S1600000x1_S1600000x40_0_1
        (broadcastInDim S1600000x1 ![0] bcast_S1600000_S1600000x1_0 w))
      (Host.gather gather_S100000x40_S1600000x1_S1600000x40_1_0_n_n_0_1_140 D
        (broadcastInDim S1600000x1 ![0] bcast_S1600000_S1600000x1_0 (wrapA colN))))

/-- The sparse product of the second edge list with a dense matrix of 40 columns. -/
def spmmP (rowN colN : IVec S200000 32) (w : FVec Ideal S200000 .f32) (D : FVec Ideal S100000x40 .f32) :
    FVec Ideal S100000x40 .f32 :=
  Host.scatterAdd scatter_S100000x40_S200000x1_S200000x40_1_0_0_1
    (broadcastInDim S100000x40 ![] bcast_S_S100000x40 (constant (F := Ideal) S_ .f32 0x00000000#32))
    (broadcastInDim S200000x1 ![0] bcast_S200000_S200000x1_0 rowN)
    (mulf (broadcastInDim S200000x40 ![0, 1] bcast_S200000x1_S200000x40_0_1
        (broadcastInDim S200000x1 ![0] bcast_S200000_S200000x1_0 w))
      (Host.gather gather_S100000x40_S200000x1_S200000x40_1_0_n_n_0_1_140 D
        (broadcastInDim S200000x1 ![0] bcast_S200000_S200000x1_0 (wrapP colN))))

/-- THE WHOLE COMPUTATION as one function of the eleven argument arrays. -/
def network (x : Mat 100000 512) (aRow aCol : IVec S1600000 32) (aVal : FVec Ideal S1600000 .f32)
    (pRow pCol : IVec S200000 32) (pVal : FVec Ideal S200000 .f32)
    (W1 : Mat 512 64) (b1 : (⟨1, ![64]⟩ : Shape).Idx → EReal) (W2 : Mat 64 40) (b2 : (⟨1, ![40]⟩ : Shape).Idx → EReal) :
    Mat 100000 40 :=
  logSoftmax (spmmP pRow pCol pVal
    (addRow (spmm40 aRow aCol aVal
      (matProd (relu (addRow (spmm64 aRow aCol aVal (matProd x W1)) (asRow b1))) W2)) (asRow b2)))

end Cert.Gcn

end
-- ==== Proof.MatmulBody.lean ====
/-
  The two matrix-product kernels, entry by entry.

  Each of the two kernels takes a block of rows and a whole weight matrix, multiplies them on the matrix unit
  and adds the product into an accumulator that is zero everywhere.  Over the extended reals a change of
  number format leaves a value as it is, and a reshaping to the same shape moves nothing, so the entry of the
  result in row p and column q is the plain sum over the contracted axis,
      Σ_k (block)(p, k) · (weights)(k, q).

  The operation itself sums over the index set of its one contracted axis, and names the two operands' entries
  through its dimension numbers.  Two things are therefore checked below for each product: that index set is
  the numbers below the axis' extent (512, resp. 64), and the operands' entries named at output entry (p, q)
  and contraction position k are (p, k) on the left and (k, q) on the right, coordinate by coordinate.
-/
import proofs.«157696_j36283883717325_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.MatmulBody

open Idealize.ShloMosaic Idealize.ShloMosaic.ValueIdx Cert.KernelIdeal Cert.KernelIdeal.Gen
open scoped BigOperators

/-! ## The first product: 4000 rows of 512 entries times a 512 × 64 matrix -/

/-- The left operand's row is the output entry's row (axis 0 of the left operand is not contracted). -/
theorem lhs1_0 (i : S4000x64.Idx) (c : dot_S4000x512_S512x64_S4000x64_1_0_0_1_n_n.contr.Idx) :
    (dot_S4000x512_S512x64_S4000x64_1_0_0_1_n_n.lhsIdx i c 0).val = (i 0).val := by
  unfold DotDims.lhsIdx
  rw [dif_neg (show ¬(0 : Fin S4000x512.rank) ∈ dot_S4000x512_S512x64_S4000x64_1_0_0_1_n_n.lhsBatch by decide),
    dif_pos (show (0 : Fin S4000x512.rank) ∈ dot_S4000x512_S512x64_S4000x64_1_0_0_1_n_n.lhsNonContracting by decide)]
  rfl

/-- The left operand's column is the contraction position (axis 1 of the left operand is the contracted one). -/
theorem lhs1_1 (i : S4000x64.Idx) (c : dot_S4000x512_S512x64_S4000x64_1_0_0_1_n_n.contr.Idx) :
    (dot_S4000x512_S512x64_S4000x64_1_0_0_1_n_n.lhsIdx i c 1).val = (c ⟨0, by decide⟩).val :=
  dot_S4000x512_S512x64_S4000x64_1_0_0_1_n_n.lhsIdx_val_of_single rfl i c

/-- The right operand's row is the contraction position (axis 0 of the right operand is the contracted one). -/
theorem rhs1_0 (i : S4000x64.Idx) (c : dot_S4000x512_S512x64_S4000x64_1_0_0_1_n_n.contr.Idx) :
    (dot_S4000x512_S512x64_S4000x64_1_0_0_1_n_n.rhsIdx i c 0).val = (c ⟨0, by decide⟩).val :=
  dot_S4000x512_S512x64_S4000x64_1_0_0_1_n_n.rhsIdx_val_of_single rfl i c

/-- The right operand's column is the output entry's column (axis 1 of the right operand is not contracted). -/
theorem rhs1_1 (i : S4000x64.Idx) (c : dot_S4000x512_S512x64_S4000x64_1_0_0_1_n_n.contr.Idx) :
    (dot_S4000x512_S512x64_S4000x64_1_0_0_1_n_n.rhsIdx i c 1).val = (i 1).val := by
  unfold DotDims.rhsIdx
  rw [dif_neg (show ¬(1 : Fin S512x64.rank) ∈ dot_S4000x512_S512x64_S4000x64_1_0_0_1_n_n.rhsBatch by decide),
    dif_pos (show (1 : Fin S512x64.rank) ∈ dot_S4000x512_S512x64_S4000x64_1_0_0_1_n_n.rhsNonContracting by decide)]
  rfl

/-- An entry of the first product kernel's result: the sum over the 512 contracted positions of the block's
    entry in the output's row times the weight matrix's entry in the output's column. -/
theorem body1_apply (x0 : Vec Ideal S4000x512 .f32) (x1 : Vec Ideal S512x64 .bf16) (p : Fin 4000) (q : Fin 64) :
    k0_pay1 (F := Ideal) x0 x1 (ix2 p q) = ∑ k : Fin 512, x0 (ix2 p k) * x1 (ix2 k q) := by
  unfold k0_pay1
  simp only [shapeCast_self]
  refine (Ideal.matmul_constant_zero_apply (φ₁ := .bf16) (φ₂ := .bf16) dot_S4000x512_S512x64_S4000x64_1_0_0_1_n_n none _ _ (ix2 p q)).trans ?_
  rw [← Equiv.sum_comp (contrEquiv1 dot_S4000x512_S512x64_S4000x64_1_0_0_1_n_n 512 rfl rfl).symm]
  refine Finset.sum_congr rfl fun k _ => ?_
  have hk := contrEquiv1_symm_val dot_S4000x512_S512x64_S4000x64_1_0_0_1_n_n 512 rfl rfl k
  have el : dot_S4000x512_S512x64_S4000x64_1_0_0_1_n_n.lhsIdx (ix2 p q)
      ((contrEquiv1 dot_S4000x512_S512x64_S4000x64_1_0_0_1_n_n 512 rfl rfl).symm k) = ix2 p k :=
    funext fun a => Fin.ext (by
      match a with
      | ⟨0, _⟩ => exact lhs1_0 _ _
      | ⟨1, _⟩ => exact (lhs1_1 _ _).trans hk)
  have er : dot_S4000x512_S512x64_S4000x64_1_0_0_1_n_n.rhsIdx (ix2 p q)
      ((contrEquiv1 dot_S4000x512_S512x64_S4000x64_1_0_0_1_n_n 512 rfl rfl).symm k) = ix2 k q :=
    funext fun a => Fin.ext (by
      match a with
      | ⟨0, _⟩ => exact (rhs1_0 _ _).trans hk
      | ⟨1, _⟩ => exact rhs1_1 _ _)
  rw [el, er]
  rfl

/-! ## The second product: 10000 rows of 64 entries times a 64 × 40 matrix -/

/-- The left operand's row is the output entry's row. -/
theorem lhs2_0 (i : S10000x40.Idx) (c : dot_S10000x64_S64x40_S10000x40_1_0_0_1_n_n.contr.Idx) :
    (dot_S10000x64_S64x40_S10000x40_1_0_0_1_n_n.lhsIdx i c 0).val = (i 0).val := by
  unfold DotDims.lhsIdx
  rw [dif_neg (show ¬(0 : Fin S10000x64.rank) ∈ dot_S10000x64_S64x40_S10000x40_1_0_0_1_n_n.lhsBatch by decide),
    dif_pos (show (0 : Fin S10000x64.rank) ∈ dot_S10000x64_S64x40_S10000x40_1_0_0_1_n_n.lhsNonContracting by decide)]
  rfl

/-- The left operand's column is the contraction position. -/
theorem lhs2_1 (i : S10000x40.Idx) (c : dot_S10000x64_S64x40_S10000x40_1_0_0_1_n_n.contr.Idx) :
    (dot_S10000x64_S64x40_S10000x40_1_0_0_1_n_n.lhsIdx i c 1).val = (c ⟨0, by decide⟩).val :=
  dot_S10000x64_S64x40_S10000x40_1_0_0_1_n_n.lhsIdx_val_of_single rfl i c

/-- The right operand's row is the contraction position. -/
theorem rhs2_0 (i : S10000x40.Idx) (c : dot_S10000x64_S64x40_S10000x40_1_0_0_1_n_n.contr.Idx) :
    (dot_S10000x64_S64x40_S10000x40_1_0_0_1_n_n.rhsIdx i c 0).val = (c ⟨0, by decide⟩).val :=
  dot_S10000x64_S64x40_S10000x40_1_0_0_1_n_n.rhsIdx_val_of_single rfl i c

/-- The right operand's column is the output entry's column. -/
theorem rhs2_1 (i : S10000x40.Idx) (c : dot_S10000x64_S64x40_S10000x40_1_0_0_1_n_n.contr.Idx) :
    (dot_S10000x64_S64x40_S10000x40_1_0_0_1_n_n.rhsIdx i c 1).val = (i 1).val := by
  unfold DotDims.rhsIdx
  rw [dif_neg (show ¬(1 : Fin S64x40.rank) ∈ dot_S10000x64_S64x40_S10000x40_1_0_0_1_n_n.rhsBatch by decide),
    dif_pos (show (1 : Fin S64x40.rank) ∈ dot_S10000x64_S64x40_S10000x40_1_0_0_1_n_n.rhsNonContracting by decide)]
  rfl

/-- An entry of the second product kernel's result: the sum over the 64 contracted positions of the block's
    entry in the output's row times the weight matrix's entry in the output's column. -/
theorem body2_apply (x0 : Vec Ideal S10000x64 .bf16) (x1 : Vec Ideal S64x40 .bf16) (p : Fin 10000) (q : Fin 40) :
    k2_pay1 (F := Ideal) x0 x1 (ix2 p q) = ∑ k : Fin 64, x0 (ix2 p k) * x1 (ix2 k q) := by
  unfold k2_pay1
  simp only [shapeCast_self]
  refine (Ideal.matmul_constant_zero_apply (φ₁ := .bf16) (φ₂ := .bf16) dot_S10000x64_S64x40_S10000x40_1_0_0_1_n_n none _ _ (ix2 p q)).trans ?_
  rw [← Equiv.sum_comp (contrEquiv1 dot_S10000x64_S64x40_S10000x40_1_0_0_1_n_n 64 rfl rfl).symm]
  refine Finset.sum_congr rfl fun k _ => ?_
  have hk := contrEquiv1_symm_val dot_S10000x64_S64x40_S10000x40_1_0_0_1_n_n 64 rfl rfl k
  have el : dot_S10000x64_S64x40_S10000x40_1_0_0_1_n_n.lhsIdx (ix2 p q)
      ((contrEquiv1 dot_S10000x64_S64x40_S10000x40_1_0_0_1_n_n 64 rfl rfl).symm k) = ix2 p k :=
    funext fun a => Fin.ext (by
      match a with
      | ⟨0, _⟩ => exact lhs2_0 _ _
      | ⟨1, _⟩ => exact (lhs2_1 _ _).trans hk)
  have er : dot_S10000x64_S64x40_S10000x40_1_0_0_1_n_n.rhsIdx (ix2 p q)
      ((contrEquiv1 dot_S10000x64_S64x40_S10000x40_1_0_0_1_n_n 64 rfl rfl).symm k) = ix2 k q :=
    funext fun a => Fin.ext (by
      match a with
      | ⟨0, _⟩ => exact (rhs2_0 _ _).trans hk
      | ⟨1, _⟩ => exact rhs2_1 _ _)
  rw [el, er]

end Cert.KernelIdeal.MatmulBody

end
-- ==== Proof.Dense1.lean ====
/-
  The first kernel multiplies the 100000 × 512 feature matrix by the first weight matrix, four thousand rows at a time.

  Its grid has 25 points.  At point t the left operand's block is rows 4000·t … 4000·t + 3999 (all
  512 columns), the right operand — the whole 512 × 64 weight matrix — is fetched once and stays, and the
  result's block is the same rows of the result.  The body multiplies the block by the weights into a zero
  accumulator, so an entry of the result is Σ_k left(r, k) · right(k, c) with r the entry's own row in the
  whole array: every block is a restriction of ONE whole-array function, the row-by-column product.  The
  blocks cover the 100000 rows, so after the last write-back the result array holds `matProd` of the two
  arrays as the kernel found them — stated for any contents `V` of the buffers at the kernel's entry.
-/
import proofs.«157696_j36283883717325_1_alg».proof.Proof.Gen.KernelIdeal.Frame
import proofs.«157696_j36283883717325_1_alg».proof.Proof.Spec
import proofs.«157696_j36283883717325_1_alg».proof.Proof.MatmulBody
import Idealize.ShloMosaic.Lib.Pipeline.Value
import Idealize.ShloMosaic.Lib.ValueIdx

set_option maxRecDepth 16384

noncomputable section

namespace Cert.KernelIdeal.Dense1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn
open scoped BigOperators

theorem origin : (![0, 0] : Fin 2 → Nat) = fun _ => 0 := funext fun a => by fin_cases a <;> rfl

/-- The row-by-column product at an entry. -/
theorem matProd_at {n k l : Nat} (X : Mat n k) (W : Mat k l) (i : (⟨2, ![n, l]⟩ : Shape).Idx) :
    matProd X W i = ∑ j : Fin k, X (ix2 (rowOf i) j) * W (ix2 j (colOf i)) := rfl

variable (V : (c : Dev nD) → (b : Ref sig .tc) → Buf (Elt Ideal) ((c : Thread nD τ).loc b))

/-- The printed index maps over the grid: the left operand's and the result's blocks move together down the rows, one
    block per point; the weight matrix stays at its only block. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the row-by-column product of the two arrays as the kernel found them. -/
theorem flushed_eq (c : Dev nD) (t : Fin cfg0.N) :
    (dat0 V c).flushed 2 t = ((cfg0.win 2).blk t).view.read (Elt Ideal) (matProd (V c main_arg0) (V c main_v0)) := by
  show (cfg0.win 2).cut (grid0.coords t) ((dat0 V c).after 2 t) = _
  rw [after0_2]
  unfold out0_2
  rw [View.canon_unit_zero origin]
  simp only [View.ld_unit_zero (S := S4000x512) origin, View.ld_unit_zero (S := S512x64) origin]
  obtain ⟨e0, e1, e2, e3, e4, e5⟩ := block_indices t
  funext j
  obtain ⟨p, q, rfl⟩ : ∃ (p : Fin 4000) (q : Fin 64), j = ix2 p q := ⟨j 0, j 1, eq_ix2 j⟩
  refine (MatmulBody.body1_apply (iblk0 V c 0 t) (iblk0 V c 1 t) p q).trans ?_
  show _ = matProd (n := 100000) (k := 512) (l := 64) (V c main_arg0) (V c main_v0) (((cfg0.win 2).blk t).view.emb (ix2 p q))
  rw [matProd_at]
  refine Finset.sum_congr rfl fun k _ => ?_
  have h0 : ((cfg0.win 0).blk t).view.emb (ix2 p k)
      = ix2 (rowOf (((cfg0.win 2).blk t).view.emb (ix2 p q))) k := by
    funext a; apply Fin.ext
    match a with
    | ⟨0, _⟩ => show win0_0.index t (0 : Fin 2) * 4000 + 1 * p.val = win0_2.index t (0 : Fin 2) * 4000 + 1 * p.val; omega
    | ⟨1, _⟩ => show win0_0.index t (1 : Fin 2) * 512 + 1 * k.val = k.val; omega
  have h1 : ((cfg0.win 1).blk t).view.emb (ix2 k q)
      = ix2 k (colOf (((cfg0.win 2).blk t).view.emb (ix2 p q))) := by
    funext a; apply Fin.ext
    match a with
    | ⟨0, _⟩ => show win0_1.index t (0 : Fin 2) * 512 + 1 * k.val = k.val; omega
    | ⟨1, _⟩ => show win0_1.index t (1 : Fin 2) * 64 + 1 * q.val = win0_2.index t (1 : Fin 2) * 64 + 1 * q.val; omega
  have hA : iblk0 V c 0 t (ix2 p k)
      = V c main_arg0 (ix2 (rowOf (((cfg0.win 2).blk t).view.emb (ix2 p q))) k) := by
    show V c main_arg0 (((cfg0.win 0).blk t).view.emb (ix2 p k)) = _
    exact congrArg (V c main_arg0) h0
  have hB : iblk0 V c 1 t (ix2 k q)
      = V c main_v0 (ix2 k (colOf (((cfg0.win 2).blk t).view.emb (ix2 p q)))) := by
    show V c main_v0 (((cfg0.win 1).blk t).view.emb (ix2 k q)) = _
    exact congrArg (V c main_v0) h1
  rw [hA, hB]

/-- An index of the result array is in point `t`'s block iff each coordinate is in the block's range. -/
theorem mem_block (t : Fin cfg0.N) (i : S100000x64.Idx) :
    i ∈ ((cfg0.win 2).blk t).view.set ↔ ∀ a : Fin 2, win0_2.index t a * S4000x64.size a ≤ (i a).val
      ∧ (i a).val < win0_2.index t a * S4000x64.size a + S4000x64.size a := by
  show i ∈ ((View.whole main_v4).slice (win0_2.rect t)).set ↔ _
  rw [View.set_slice_whole, Rect.mem_set_unit]
  exact Iff.rfl

/-- Every index of the result array is in the block of the point its row falls under, row / 4000. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 25 := N_0
  have ht : (i 0).val / 4000 < cfg0.N := by show (i 0).val / 4000 < grid0.N; rw [hN]; omega
  refine ⟨⟨(i 0).val / 4000, ht⟩, flush0_2 _, ?_⟩
  rw [mem_block]
  obtain ⟨e0, e1, e2, e3, e4, e5⟩ := block_indices ⟨(i 0).val / 4000, ht⟩
  intro a
  match a with
  | ⟨0, _⟩ =>
    show win0_2.index ⟨(i 0).val / 4000, ht⟩ (0 : Fin 2) * 4000 ≤ (i 0).val
      ∧ (i 0).val < win0_2.index ⟨(i 0).val / 4000, ht⟩ (0 : Fin 2) * 4000 + 4000
    rw [e4]; show (i 0).val / 4000 * 4000 ≤ (i 0).val ∧ (i 0).val < (i 0).val / 4000 * 4000 + 4000; omega
  | ⟨1, _⟩ =>
    show win0_2.index ⟨(i 0).val / 4000, ht⟩ (1 : Fin 2) * 64 ≤ (i 1).val
      ∧ (i 1).val < win0_2.index ⟨(i 0).val / 4000, ht⟩ (1 : Fin 2) * 64 + 64
    rw [e5]; omega

/-- THE RESULT ARRAY after the kernel: the row-by-column product of the two arrays as the kernel found them. -/
theorem result (c : Dev nD) : (dat0 V c).arrAt 2 cfg0.N = matProd (V c main_arg0) (V c main_v0) :=
  (dat0 V c).arrAt_eq_of_cover 2 _ (fun t _ => flushed_eq V c t) covered

end Cert.KernelIdeal.Dense1

end
-- ==== Proof.BiasRelu.lean ====
/-
  The second kernel adds a one-row matrix to every row of its operand and takes the maximum with zero, ten
  thousand rows at a time.

  Its grid has ten points.  At point t the operand's block is rows 10000·t … 10000·t + 9999, the one-row
  operand is fetched whole, and the result's block is the same rows of the result.  An entry of the result
  depends on the operand's entry at the same place and on the one-row operand's entry in the same column,
  whatever the point (the result's narrower float format changes nothing at the ideal values): the blocks
  are restrictions of ONE whole-array function, `relu` after `addRow`.  The ten blocks cover the 100000
  rows, so after the last write-back the result array holds that function of the two arrays as the kernel
  found them — stated for any contents `V` of the buffers at the kernel's entry.
-/
import proofs.«157696_j36283883717325_1_alg».proof.Proof.Gen.KernelIdeal.Frame
import proofs.«157696_j36283883717325_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BiasRelu

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

theorem origin : (![0, 0] : Fin 2 → Nat) = fun _ => 0 := funext fun a => by fin_cases a <;> rfl

/-- The body's arithmetic at an entry: the operand's entry plus the one-row operand's entry in that column, or zero if
    that is larger. -/
theorem body_apply (x0 : Vec Ideal S10000x64 .f32) (x1 : Vec Ideal S1x64 .f32) (p : Fin 10000) (q : Fin 64) :
    k1_pay1 (F := Ideal) x0 x1 (ix2 p q) = max (x0 (ix2 p q) + x1 (ix2 (0 : Fin 1) q)) 0 := by
  unfold k1_pay1
  simp only [shapeCast_self]
  show max (x0 (ix2 p q) + broadcastTo S10000x64 x1 _ (ix2 p q)) (Ideal.ofBits .f32 0x00000000#32) = _
  rw [Ideal.ofBits_zero_f32]
  exact congrArg (fun z => max (x0 (ix2 p q) + z) 0) (broadcastTo_1b_ab_apply x1 _ p q)

variable (V : (c : Dev nD) → (b : Ref sig .tc) → Buf (Elt Ideal) ((c : Thread nD τ).loc b))

/-- The printed index maps over the grid: the operand's and the result's blocks move together down the rows, one
    block per point; the one-row operand stays at its only block. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `relu` after `addRow` of the two arrays as the kernel found them. -/
theorem flushed_eq (c : Dev nD) (t : Fin cfg1.N) :
    (dat1 V c).flushed 2 t = ((cfg1.win 2).blk t).view.read (Elt Ideal) (relu (addRow (V c main_v17) (V c main_v2))) := by
  show (cfg1.win 2).cut (grid1.coords t) ((dat1 V c).after 2 t) = _
  rw [after1_2]
  unfold out1_2
  rw [View.canon_unit_zero origin]
  simp only [View.ld_unit_zero (S := S10000x64) origin, View.ld_unit_zero (S := S1x64) origin]
  obtain ⟨e0, e1, e2, e3, e4, e5⟩ := block_indices t
  funext j
  obtain ⟨p, q, rfl⟩ : ∃ (p : Fin 10000) (q : Fin 64), j = ix2 p q := ⟨j 0, j 1, eq_ix2 j⟩
  refine (body_apply (iblk1 V c 0 t) (iblk1 V c 1 t) p q).trans ?_
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * q.val = win1_2.index t (1 : Fin 2) * 64 + 1 * q.val; omega
  have h1 : ((cfg1.win 1).blk t).view.emb (ix2 (0 : Fin 1) q)
      = ix2 (0 : Fin 1) (colOf (((cfg1.win 2).blk t).view.emb (ix2 p q))) := by
    funext a; apply Fin.ext
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  have hA : iblk1 V c 0 t (ix2 p q) = V c main_v17 (((cfg1.win 2).blk t).view.emb (ix2 p q)) := by
    show V c main_v17 (((cfg1.win 0).blk t).view.emb (ix2 p q)) = _
    exact congrArg (V c main_v17) h0
  have hB : iblk1 V c 1 t (ix2 (0 : Fin 1) q)
      = V c main_v2 (ix2 (0 : Fin 1) (colOf (((cfg1.win 2).blk t).view.emb (ix2 p q)))) := by
    show V c main_v2 (((cfg1.win 1).blk t).view.emb (ix2 (0 : Fin 1) q)) = _
    exact congrArg (V c main_v2) h1
  rw [hA, hB]
  rfl

/-- An index of the result array is in point `t`'s block iff each coordinate is in the block's range. -/
theorem mem_block (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v18).slice (win1_2.rect t)).set ↔ _
  rw [View.set_slice_whole, Rect.mem_set_unit]
  exact Iff.rfl

/-- Every index of the result array is in the block of the point its row falls under, row / 10000. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : grid1.N = 10 := N_1
  have ht : (i 0).val / 10000 < cfg1.N := by show (i 0).val / 10000 < grid1.N; rw [hN]; omega
  refine ⟨⟨(i 0).val / 10000, ht⟩, flush1_2 _, ?_⟩
  rw [mem_block]
  obtain ⟨e0, e1, e2, e3, e4, e5⟩ := block_indices ⟨(i 0).val / 10000, ht⟩
  intro a
  match a with
  | ⟨0, _⟩ =>
    show win1_2.index ⟨(i 0).val / 10000, ht⟩ (0 : Fin 2) * 10000 ≤ (i 0).val
      ∧ (i 0).val < win1_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, ht⟩ (1 : Fin 2) * 64 ≤ (i 1).val
      ∧ (i 1).val < win1_2.index ⟨(i 0).val / 10000, ht⟩ (1 : Fin 2) * 64 + 64
    rw [e5]; omega

/-- THE RESULT ARRAY after the kernel: `relu` after `addRow` of the two arrays as the kernel found them. -/
theorem result (c : Dev nD) : (dat1 V c).arrAt 2 cfg1.N = relu (addRow (V c main_v17) (V c main_v2)) :=
  (dat1 V c).arrAt_eq_of_cover 2 _ (fun t _ => flushed_eq V c t) covered

end Cert.KernelIdeal.BiasRelu

end
-- ==== Proof.Dense2.lean ====
/-
  The third kernel multiplies the 100000 × 64 hidden matrix by the second weight matrix, ten thousand rows at a time.

  Its grid has 10 points.  At point t the left operand's block is rows 10000·t … 10000·t + 9999 (all
  64 columns), the right operand — the whole 64 × 40 weight matrix — is fetched once and stays, and the
  result's block is the same rows of the result.  The body multiplies the block by the weights into a zero
  accumulator, so an entry of the result is Σ_k left(r, k) · right(k, c) with r the entry's own row in the
  whole array: every block is a restriction of ONE whole-array function, the row-by-column product.  The
  blocks cover the 100000 rows, so after the last write-back the result array holds `matProd` of the two
  arrays as the kernel found them — stated for any contents `V` of the buffers at the kernel's entry.
-/
import proofs.«157696_j36283883717325_1_alg».proof.Proof.Gen.KernelIdeal.Frame
import proofs.«157696_j36283883717325_1_alg».proof.Proof.Spec
import proofs.«157696_j36283883717325_1_alg».proof.Proof.MatmulBody
import Idealize.ShloMosaic.Lib.Pipeline.Value
import Idealize.ShloMosaic.Lib.ValueIdx

set_option maxRecDepth 16384

noncomputable section

namespace Cert.KernelIdeal.Dense2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn
open scoped BigOperators

theorem origin : (![0, 0] : Fin 2 → Nat) = fun _ => 0 := funext fun a => by fin_cases a <;> rfl

/-- The row-by-column product at an entry. -/
theorem matProd_at {n k l : Nat} (X : Mat n k) (W : Mat k l) (i : (⟨2, ![n, l]⟩ : Shape).Idx) :
    matProd X W i = ∑ j : Fin k, X (ix2 (rowOf i) j) * W (ix2 j (colOf i)) := rfl

variable (V : (c : Dev nD) → (b : Ref sig .tc) → Buf (Elt Ideal) ((c : Thread nD τ).loc b))

/-- The printed index maps over the grid: the left operand's and the result's blocks move together down the rows, one
    block per point; the weight matrix stays at its only block. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the row-by-column product of the two arrays as the kernel found them. -/
theorem flushed_eq (c : Dev nD) (t : Fin cfg2.N) :
    (dat2 V c).flushed 2 t = ((cfg2.win 2).blk t).view.read (Elt Ideal) (matProd (V c main_v18) (V c main_v1)) := by
  show (cfg2.win 2).cut (grid2.coords t) ((dat2 V c).after 2 t) = _
  rw [after2_2]
  unfold out2_2
  rw [View.canon_unit_zero origin]
  simp only [View.ld_unit_zero (S := S10000x64) origin, View.ld_unit_zero (S := S64x40) origin]
  obtain ⟨e0, e1, e2, e3, e4, e5⟩ := block_indices t
  funext j
  obtain ⟨p, q, rfl⟩ : ∃ (p : Fin 10000) (q : Fin 40), j = ix2 p q := ⟨j 0, j 1, eq_ix2 j⟩
  refine (MatmulBody.body2_apply (iblk2 V c 0 t) (iblk2 V c 1 t) p q).trans ?_
  show _ = matProd (n := 100000) (k := 64) (l := 40) (V c main_v18) (V c main_v1) (((cfg2.win 2).blk t).view.emb (ix2 p q))
  rw [matProd_at]
  refine Finset.sum_congr rfl fun k _ => ?_
  have h0 : ((cfg2.win 0).blk t).view.emb (ix2 p k)
      = ix2 (rowOf (((cfg2.win 2).blk t).view.emb (ix2 p q))) k := by
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 64 + 1 * k.val = k.val; omega
  have h1 : ((cfg2.win 1).blk t).view.emb (ix2 k q)
      = ix2 k (colOf (((cfg2.win 2).blk t).view.emb (ix2 p q))) := by
    funext a; apply Fin.ext
    match a with
    | ⟨0, _⟩ => show win2_1.index t (0 : Fin 2) * 64 + 1 * k.val = k.val; omega
    | ⟨1, _⟩ => show win2_1.index t (1 : Fin 2) * 40 + 1 * q.val = win2_2.index t (1 : Fin 2) * 40 + 1 * q.val; omega
  have hA : iblk2 V c 0 t (ix2 p k)
      = V c main_v18 (ix2 (rowOf (((cfg2.win 2).blk t).view.emb (ix2 p q))) k) := by
    show V c main_v18 (((cfg2.win 0).blk t).view.emb (ix2 p k)) = _
    exact congrArg (V c main_v18) h0
  have hB : iblk2 V c 1 t (ix2 k q)
      = V c main_v1 (ix2 k (colOf (((cfg2.win 2).blk t).view.emb (ix2 p q)))) := by
    show V c main_v1 (((cfg2.win 1).blk t).view.emb (ix2 k q)) = _
    exact congrArg (V c main_v1) h1
  rw [hA, hB]

/-- An index of the result array is in point `t`'s block iff each coordinate is in the block's range. -/
theorem mem_block (t : Fin cfg2.N) (i : S100000x40.Idx) :
    i ∈ ((cfg2.win 2).blk t).view.set ↔ ∀ a : Fin 2, win2_2.index t a * S10000x40.size a ≤ (i a).val
      ∧ (i a).val < win2_2.index t a * S10000x40.size a + S10000x40.size a := by
  show i ∈ ((View.whole main_v19).slice (win2_2.rect t)).set ↔ _
  rw [View.set_slice_whole, Rect.mem_set_unit]
  exact Iff.rfl

/-- Every index of the result array is in the block of the point its row falls under, row / 10000. -/
theorem covered (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  have hN : grid2.N = 10 := N_2
  have ht : (i 0).val / 10000 < cfg2.N := by show (i 0).val / 10000 < grid2.N; rw [hN]; omega
  refine ⟨⟨(i 0).val / 10000, ht⟩, flush2_2 _, ?_⟩
  rw [mem_block]
  obtain ⟨e0, e1, e2, e3, e4, e5⟩ := block_indices ⟨(i 0).val / 10000, ht⟩
  intro a
  match a with
  | ⟨0, _⟩ =>
    show win2_2.index ⟨(i 0).val / 10000, ht⟩ (0 : Fin 2) * 10000 ≤ (i 0).val
      ∧ (i 0).val < win2_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, ht⟩ (1 : Fin 2) * 40 ≤ (i 1).val
      ∧ (i 1).val < win2_2.index ⟨(i 0).val / 10000, ht⟩ (1 : Fin 2) * 40 + 40
    rw [e5]; omega

/-- THE RESULT ARRAY after the kernel: the row-by-column product of the two arrays as the kernel found them. -/
theorem result (c : Dev nD) : (dat2 V c).arrAt 2 cfg2.N = matProd (V c main_v18) (V c main_v1) :=
  (dat2 V c).arrAt_eq_of_cover 2 _ (fun t _ => flushed_eq V c t) covered

end Cert.KernelIdeal.Dense2

end
-- ==== Proof.BiasAdd.lean ====
/-
  The fourth kernel adds a one-row matrix to every row of its operand, ten thousand rows at a time.

  Its grid has ten points.  At point t the operand's block is rows 10000·t … 10000·t + 9999, the one-row
  operand is fetched whole, and the result's block is the same rows of the result.  An entry of the result
  therefore depends on the operand's entry at the same place and on the one-row operand's entry in the same
  column, whatever the point: the blocks are restrictions of ONE whole-array function, `addRow`.  The ten blocks
  cover the 100000 rows, so after the last write-back the result array holds `addRow` of the two arrays as
  the kernel found them — stated for any contents `V` of the buffers at the kernel's entry.
-/
import proofs.«157696_j36283883717325_1_alg».proof.Proof.Gen.KernelIdeal.Frame
import proofs.«157696_j36283883717325_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.BiasAdd

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

theorem origin : (![0, 0] : Fin 2 → Nat) = fun _ => 0 := funext fun a => by fin_cases a <;> rfl

/-- The body's arithmetic at an entry: the operand's entry plus the one-row operand's entry in that column. -/
theorem body_apply (x0 : Vec Ideal S10000x40 .f32) (x1 : Vec Ideal S1x40 .f32) (p : Fin 10000) (q : Fin 40) :
    k3_pay1 (F := Ideal) x0 x1 (ix2 p q) = x0 (ix2 p q) + x1 (ix2 (0 : Fin 1) q) := by
  unfold k3_pay1
  simp only [shapeCast_self]
  exact congrArg (x0 (ix2 p q) + ·) (broadcastTo_1b_ab_apply x1 _ p q)

variable (V : (c : Dev nD) → (b : Ref sig .tc) → Buf (Elt Ideal) ((c : Thread nD τ).loc b))

/-- The printed index maps over the grid: the operand's and the result's blocks move together down the rows, one
    block per point; the one-row operand stays at its only block. -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of `addRow` of the two arrays as the kernel found them. -/
theorem flushed_eq (c : Dev nD) (t : Fin cfg3.N) :
    (dat3 V c).flushed 2 t = ((cfg3.win 2).blk t).view.read (Elt Ideal) (addRow (V c main_v32) (V c main_v3)) := by
  show (cfg3.win 2).cut (grid3.coords t) ((dat3 V c).after 2 t) = _
  rw [after3_2]
  unfold out3_2
  rw [View.canon_unit_zero origin]
  simp only [View.ld_unit_zero (S := S10000x40) origin, View.ld_unit_zero (S := S1x40) origin]
  obtain ⟨e0, e1, e2, e3, e4, e5⟩ := block_indices t
  funext j
  obtain ⟨p, q, rfl⟩ : ∃ (p : Fin 10000) (q : Fin 40), j = ix2 p q := ⟨j 0, j 1, eq_ix2 j⟩
  refine (body_apply (iblk3 V c 0 t) (iblk3 V c 1 t) p q).trans ?_
  have h0 : ((cfg3.win 0).blk t).view.emb (ix2 p q) = ((cfg3.win 2).blk t).view.emb (ix2 p q) := by
    funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 40 + 1 * q.val = win3_2.index t (1 : Fin 2) * 40 + 1 * q.val; omega
  have h1 : ((cfg3.win 1).blk t).view.emb (ix2 (0 : Fin 1) q)
      = ix2 (0 : Fin 1) (colOf (((cfg3.win 2).blk t).view.emb (ix2 p q))) := by
    funext a; apply Fin.ext
    match a with
    | ⟨0, _⟩ => show win3_1.index t (0 : Fin 2) * 1 + 1 * 0 = 0; omega
    | ⟨1, _⟩ => show win3_1.index t (1 : Fin 2) * 40 + 1 * q.val = win3_2.index t (1 : Fin 2) * 40 + 1 * q.val; omega
  have hA : iblk3 V c 0 t (ix2 p q) = V c main_v32 (((cfg3.win 2).blk t).view.emb (ix2 p q)) := by
    show V c main_v32 (((cfg3.win 0).blk t).view.emb (ix2 p q)) = _
    exact congrArg (V c main_v32) h0
  have hB : iblk3 V c 1 t (ix2 (0 : Fin 1) q)
      = V c main_v3 (ix2 (0 : Fin 1) (colOf (((cfg3.win 2).blk t).view.emb (ix2 p q)))) := by
    show V c main_v3 (((cfg3.win 1).blk t).view.emb (ix2 (0 : Fin 1) q)) = _
    exact congrArg (V c main_v3) h1
  rw [hA, hB]
  rfl

/-- An index of the result array is in point `t`'s block iff each coordinate is in the block's range. -/
theorem mem_block (t : Fin cfg3.N) (i : S100000x40.Idx) :
    i ∈ ((cfg3.win 2).blk t).view.set ↔ ∀ a : Fin 2, win3_2.index t a * S10000x40.size a ≤ (i a).val
      ∧ (i a).val < win3_2.index t a * S10000x40.size a + S10000x40.size a := by
  show i ∈ ((View.whole main_v33).slice (win3_2.rect t)).set ↔ _
  rw [View.set_slice_whole, Rect.mem_set_unit]
  exact Iff.rfl

/-- Every index of the result array is in the block of the point its row falls under, row / 10000. -/
theorem covered (i : S100000x40.Idx) :
    ∃ t : Fin cfg3.N, (cfg3.win 2).flush t = true ∧ i ∈ ((cfg3.win 2).blk t).view.set := by
  have hi0 : (i 0).val < 100000 := (i 0).isLt
  have hi1 : (i 1).val < 40 := (i 1).isLt
  have hN : grid3.N = 10 := N_3
  have ht : (i 0).val / 10000 < cfg3.N := by show (i 0).val / 10000 < grid3.N; rw [hN]; omega
  refine ⟨⟨(i 0).val / 10000, ht⟩, flush3_2 _, ?_⟩
  rw [mem_block]
  obtain ⟨e0, e1, e2, e3, e4, e5⟩ := block_indices ⟨(i 0).val / 10000, ht⟩
  intro a
  match a with
  | ⟨0, _⟩ =>
    show win3_2.index ⟨(i 0).val / 10000, ht⟩ (0 : Fin 2) * 10000 ≤ (i 0).val
      ∧ (i 0).val < win3_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win3_2.index ⟨(i 0).val / 10000, ht⟩ (1 : Fin 2) * 40 ≤ (i 1).val
      ∧ (i 1).val < win3_2.index ⟨(i 0).val / 10000, ht⟩ (1 : Fin 2) * 40 + 40
    rw [e5]; omega

/-- THE RESULT ARRAY after the kernel: `addRow` of the two arrays as the kernel found them. -/
theorem result (c : Dev nD) : (dat3 V c).arrAt 2 cfg3.N = addRow (V c main_v32) (V c main_v3) :=
  (dat3 V c).arrAt_eq_of_cover 2 _ (fun t _ => flushed_eq V c t) covered

end Cert.KernelIdeal.BiasAdd

end
-- ==== Proof.SoftmaxBody.lean ====
/-
  The row-wise log-softmax as the last kernel's body computes it, read at one entry.

  On a block of 10000 rows of 40 entries the body takes each row's largest entry (a reduction along the row with
  `max`, started from minus infinity), keeps it as a matrix of one column and spreads it back over the 40 columns,
  subtracts it from every entry, exponentiates, sums each row (a reduction along the row with `+`, started from
  zero), takes the logarithm of that sum, spreads it back in the same way, and subtracts again. Over the extended
  reals the value at entry (p, q) is therefore

      (x(p, q) − M_p) − log (Σ_j exp (x(p, j) − M_p)),      M_p = max_j x(p, j).

  The two layout steps that keep the reduced axis as a unit axis — a vector of n entries cast to an n × 1 matrix,
  and an n × 1 matrix broadcast to n × b — are read at an index first; then the two reductions at a row; then the
  body is the composition.
-/
import proofs.«157696_j36283883717325_1_alg».proof.Proof.Gen.KernelIdeal.Skeleton
import proofs.«157696_j36283883717325_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.SoftmaxBody

open Idealize.ShloMosaic Idealize.ShloMosaic.ValueIdx Cert.KernelIdeal Cert.KernelIdeal.Gen Cert.Gcn
open scoped BigOperators

/-! ## The two layout steps that keep a reduced axis as a unit axis -/

section Layout
variable {α : Type}

/-- A vector of `a` entries cast to a matrix of one column reads, at `(i, u)`, the vector at `i`: the two
    row-major positions are `i` and `i · 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A matrix of one column broadcast over `b` columns reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two lane reductions read at a row -/

/-- The f32 pattern `0xFF800000` is minus infinity, the bottom of the extended reals. -/
theorem negInf_f32 : Ideal.ofBits .f32 0xFF800000#32 = ⊥ := by
  simp [Ideal.ofBits, Ideal.ieee]

/-- The index of row `p` with column `j` put back on the reduced axis is `(p, j)`. -/
theorem lift_row (h : S10000x40.Reduces [1] S10000) (p : Fin 10000) (j : Fin 40) :
    h.lift (ix1 p) j = ix2 p j := by
  funext c
  match c with
  | ⟨0, _⟩ => exact Fin.ext rfl
  | ⟨1, _⟩ => exact Fin.ext rfl

/-- The lane reduction with `max` from minus infinity, read at row `p`: the row's largest entry. -/
theorem rowMax_read (src : FVec Ideal S10000x40 .f32) (h : S10000x40.Reduces [1] S10000) (hφ : FKind.Formats .f32)
    (hacc : (0xFF800000#32 : BitVec 32) = 0xFF800000#32) (p : Fin 10000) :
    multiReduction .maximumf [1] S10000 src 0xFF800000#32 h hφ hacc (ix1 p) = rowMax src p := by
  refine (Ideal.multiReduction_maximumf_single src _ h hφ hacc (ix1 p)).trans ?_
  unfold rowMax
  rw [Ideal.ofBits_def, negInf_f32]
  exact congrArg (fun f => (Finset.univ : Finset (Fin 40)).fold max ⊥ f)
    (funext fun j => congrArg src (lift_row h p j))

/-- The lane reduction with `+` from zero, read at row `p`: the sum of the row's entries. -/
theorem rowSum_read (src : FVec Ideal S10000x40 .f32) (h : S10000x40.Reduces [1] S10000) (hφ : FKind.Formats .f32)
    (hacc : (0x00000000#32 : BitVec 32) = 0x00000000#32) (p : Fin 10000) :
    multiReduction .add [1] S10000 src 0x00000000#32 h hφ hacc (ix1 p) = ∑ j : Fin 40, src (ix2 p j) := by
  refine (Ideal.multiReduction_add_single src _ h hφ hacc (ix1 p)).trans ?_
  exact Finset.sum_congr rfl fun j _ => congrArg src (lift_row h p j)

/-! ## A reduced vector spread back over the columns -/

/-- A vector of one entry per row, kept as a column and spread over the 40 columns, reads at `(p, q)` the entry of
    row `p`. -/
theorem spread_apply (w : FVec Ideal S10000 .f32) (p : Fin 10000) (q : Fin 40) :
    broadcastTo S10000x40 (shapeCast S10000x1 w shapeCasts_S10000_S10000x1) broadcasts_S10000x1_S10000x40 (ix2 p q)
      = w (ix1 p) :=
  (broadcastTo_a1_ab_apply _ _ p q).trans (shapeCast_a_a1_apply w _ p 0)

/-- The same with the logarithm taken on the column before it is spread. -/
theorem spreadLog_apply (w : FVec Ideal S10000 .f32) (p : Fin 10000) (q : Fin 40) :
    broadcastTo S10000x40 (log (shapeCast S10000x1 w shapeCasts_S10000_S10000x1)) broadcasts_S10000x1_S10000x40 (ix2 p q)
      = Ideal.log (w (ix1 p)) :=
  (broadcastTo_a1_ab_apply _ _ p q).trans (congrArg Ideal.log (shapeCast_a_a1_apply w _ p 0))

/-! ## The body at an entry -/

/-- An entry less its row's largest entry: the shifted entry at `(p, j)`. -/
theorem shifted_apply (x0 : FVec Ideal S10000x40 .f32) (h : S10000x40.Reduces [1] S10000) (hφ : FKind.Formats .f32)
    (hacc : (0xFF800000#32 : BitVec 32) = 0xFF800000#32) (p : Fin 10000) (j : Fin 40) :
    subf x0 (broadcastTo S10000x40 (shapeCast S10000x1 (multiReduction .maximumf [1] S10000 x0 0xFF800000#32 h hφ hacc)
        shapeCasts_S10000_S10000x1) broadcasts_S10000x1_S10000x40) (ix2 p j)
      = x0 (ix2 p j) - rowMax x0 p :=
  congrArg (fun m => x0 (ix2 p j) - m) ((spread_apply _ p j).trans (rowMax_read x0 h hφ hacc p))

theorem body_apply (x0 : Vec Ideal S10000x40 .f32) (p : Fin 10000) (q : Fin 40) :
    k4_pay1 (F := Ideal) x0 (ix2 p q)
      = (x0 (ix2 p q) - rowMax x0 p) - Ideal.log (∑ j : Fin 40, Ideal.exp (x0 (ix2 p j) - rowMax x0 p)) := by
  unfold k4_pay1
  rw [shapeCast_self]
  refine congrArg₂ (fun a b : EReal => a - b) (shifted_apply x0 _ _ _ p q) ?_
  refine (spreadLog_apply _ p q).trans (congrArg Ideal.log ?_)
  refine (rowSum_read _ _ _ _ p).trans ?_
  exact Finset.sum_congr rfl fun j _ => congrArg Ideal.exp (shifted_apply x0 _ _ _ p j)

end Cert.KernelIdeal.SoftmaxBody

end
-- ==== Proof.SoftmaxRows.lean ====
/-
  The last kernel takes the row-wise log-softmax of its operand, ten thousand rows at a time.

  Its grid has ten points.  At point t the operand's block is rows 10000·t … 10000·t + 9999, all forty
  columns, and the result's block is the same rows of the result.  An entry of the result depends only on
  the operand's row it sits in — the entry itself, the row's maximum and the row's sum of exponentials — and
  a whole row lies in one block, so every block is a restriction of ONE whole-array function, `logSoftmax`.
  The ten blocks cover the 100000 rows, so after the last write-back the result array holds `logSoftmax` of
  the array as the kernel found it — stated for any contents `V` of the buffers at the kernel's entry.
-/
import proofs.«157696_j36283883717325_1_alg».proof.Proof.Gen.KernelIdeal.Frame
import proofs.«157696_j36283883717325_1_alg».proof.Proof.Spec
import proofs.«157696_j36283883717325_1_alg».proof.Proof.SoftmaxBody
import Idealize.ShloMosaic.Lib.Pipeline.Value
import Idealize.ShloMosaic.Lib.ValueIdx

set_option maxRecDepth 16384

noncomputable section

namespace Cert.KernelIdeal.SoftmaxRows

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn
open scoped BigOperators

theorem origin : (![0, 0] : Fin 2 → Nat) = fun _ => 0 := funext fun a => by fin_cases a <;> rfl

variable (V : (c : Dev nD) → (b : Ref sig .tc) → Buf (Elt Ideal) ((c : Thread nD τ).loc b))

/-- The printed index maps over the grid: the operand's and the result's blocks move together down the rows, one
    block per point. -/
theorem block_indices : ∀ t : Fin cfg4.N, win4_0.index t (0 : Fin 2) = t.val ∧ win4_0.index t (1 : Fin 2) = 0
    ∧ win4_1.index t (0 : Fin 2) = t.val ∧ win4_1.index t (1 : Fin 2) = 0 :=
  (by decide +kernel : ∀ t : Fin grid4.N, _)

/-- What point `t` writes back is block `t` of `logSoftmax` of the array as the kernel found it. -/
theorem flushed_eq (c : Dev nD) (t : Fin cfg4.N) :
    (dat4 V c).flushed 1 t = ((cfg4.win 1).blk t).view.read (Elt Ideal) (logSoftmax (V c main_v46)) := by
  show (cfg4.win 1).cut (grid4.coords t) ((dat4 V c).after 1 t) = _
  rw [after4_1]
  unfold out4_1
  rw [View.canon_unit_zero origin]
  simp only [View.ld_unit_zero (S := S10000x40) origin]
  obtain ⟨e0, e1, e2, e3⟩ := block_indices t
  funext j
  obtain ⟨p, q, rfl⟩ : ∃ (p : Fin 10000) (q : Fin 40), j = ix2 p q := ⟨j 0, j 1, eq_ix2 j⟩
  refine (SoftmaxBody.body_apply (iblk4 V c 0 t) p q).trans ?_
  -- the operand's row the entry sits in, read through the block
  have hrow : ∀ k : Fin 40, iblk4 V c 0 t (ix2 p k)
      = V c main_v46 (ix2 (rowOf (((cfg4.win 1).blk t).view.emb (ix2 p q))) k) := fun k => by
    show V c main_v46 (((cfg4.win 0).blk t).view.emb (ix2 p k)) = _
    refine congrArg (V c main_v46) (funext fun a => Fin.ext ?_)
    match a with
    | ⟨0, _⟩ => show win4_0.index t (0 : Fin 2) * 10000 + 1 * p.val = win4_1.index t (0 : Fin 2) * 10000 + 1 * p.val; omega
    | ⟨1, _⟩ => show win4_0.index t (1 : Fin 2) * 40 + 1 * k.val = k.val; omega
  have hself : iblk4 V c 0 t (ix2 p q) = V c main_v46 (((cfg4.win 1).blk t).view.emb (ix2 p q)) := by
    show V c main_v46 (((cfg4.win 0).blk t).view.emb (ix2 p q)) = _
    refine congrArg (V c main_v46) (funext fun a => Fin.ext ?_)
    match a with
    | ⟨0, _⟩ => show win4_0.index t (0 : Fin 2) * 10000 + 1 * p.val = win4_1.index t (0 : Fin 2) * 10000 + 1 * p.val; omega
    | ⟨1, _⟩ => show win4_0.index t (1 : Fin 2) * 40 + 1 * q.val = win4_1.index t (1 : Fin 2) * 40 + 1 * q.val; omega
  have hmax : rowMax (n := 10000) (l := 40) (iblk4 V c 0 t) p
      = rowMax (n := 100000) (l := 40) (V c main_v46) (rowOf (((cfg4.win 1).blk t).view.emb (ix2 p q))) := by
    unfold rowMax
    exact congrArg (fun f => Finset.fold max ⊥ f (Finset.univ : Finset (Fin 40))) (funext hrow)
  rw [hmax, hself]
  simp only [hrow]
  rfl

/-- An index of the result array is in point `t`'s block iff each coordinate is in the block's range. -/
theorem mem_block (t : Fin cfg4.N) (i : S100000x40.Idx) :
    i ∈ ((cfg4.win 1).blk t).view.set ↔ ∀ a : Fin 2, win4_1.index t a * S10000x40.size a ≤ (i a).val
      ∧ (i a).val < win4_1.index t a * S10000x40.size a + S10000x40.size a := by
  show i ∈ ((View.whole main_v47).slice (win4_1.rect t)).set ↔ _
  rw [View.set_slice_whole, Rect.mem_set_unit]
  exact Iff.rfl

/-- Every index of the result array is in the block of the point its row falls under, row / 10000. -/
theorem covered (i : S100000x40.Idx) :
    ∃ t : Fin cfg4.N, (cfg4.win 1).flush t = true ∧ i ∈ ((cfg4.win 1).blk t).view.set := by
  have hi0 : (i 0).val < 100000 := (i 0).isLt
  have hi1 : (i 1).val < 40 := (i 1).isLt
  have hN : grid4.N = 10 := N_4
  have ht : (i 0).val / 10000 < cfg4.N := by show (i 0).val / 10000 < grid4.N; rw [hN]; omega
  refine ⟨⟨(i 0).val / 10000, ht⟩, flush4_1 _, ?_⟩
  rw [mem_block]
  obtain ⟨e0, e1, e2, e3⟩ := block_indices ⟨(i 0).val / 10000, ht⟩
  intro a
  match a with
  | ⟨0, _⟩ =>
    show win4_1.index ⟨(i 0).val / 10000, ht⟩ (0 : Fin 2) * 10000 ≤ (i 0).val
      ∧ (i 0).val < win4_1.index ⟨(i 0).val / 10000, ht⟩ (0 : Fin 2) * 10000 + 10000
    rw [e2]; show (i 0).val / 10000 * 10000 ≤ (i 0).val ∧ (i 0).val < (i 0).val / 10000 * 10000 + 10000; omega
  | ⟨1, _⟩ =>
    show win4_1.index ⟨(i 0).val / 10000, ht⟩ (1 : Fin 2) * 40 ≤ (i 1).val
      ∧ (i 1).val < win4_1.index ⟨(i 0).val / 10000, ht⟩ (1 : Fin 2) * 40 + 40
    rw [e3]; omega

/-- THE RESULT ARRAY after the kernel: `logSoftmax` of the array as the kernel found it. -/
theorem result (c : Dev nD) : (dat4 V c).arrAt 1 cfg4.N = logSoftmax (V c main_v46) :=
  (dat4 V c).arrAt_eq_of_cover 1 _ (fun t _ => flushed_eq V c t) covered

end Cert.KernelIdeal.SoftmaxRows

end
-- ==== Proof.KernelLayout.lean ====
/-
  Two layout steps of the kernel program's host side.

  Before the second and the fourth kernel the program lays each bias vector of n entries out as a matrix of one
  row with the same entries in the same order.  Read at an entry (u, c) of the one-row matrix — u can only be
  0 — the result is the vector's entry c: this is the specification's `asRow`.

  It also hands each weight matrix to its kernel in a narrower number format.  Over the extended reals a change
  of format leaves every entry as it is, so the matrix handed over is the matrix itself.
-/
import proofs.«157696_j36283883717325_1_alg».proof.Proof.Gen.KernelIdeal
import proofs.«157696_j36283883717325_1_alg».proof.Proof.Spec
import Idealize.ShloMosaic.Lib.ValueIdx
import Idealize.ShloMosaic.Lib.ValueLayout
import Idealize.ShloMosaic.Lib.Pipeline.Value

noncomputable section

namespace Cert.KernelIdeal.Layout

open Idealize.ShloMosaic Idealize.ShloMosaic.ValueIdx Cert.KernelIdeal Cert.KernelIdeal.Gen

/-- The 64-entry vector laid out as one row of 64: the entry in column c is the vector's entry c. -/
theorem reshape64_eq (b : FVec Ideal S64 .f32) : shapeCast S1x64 b shapeCasts_S64_S1x64 = Cert.Gcn.asRow b := by
  funext j
  obtain ⟨u, c, rfl⟩ : ∃ (u : Fin 1) (c : Fin 64), j = ix2 u c := ⟨j 0, j 1, eq_ix2 j⟩
  exact shapeCast_a_1a_apply b shapeCasts_S64_S1x64 u c

/-- The 40-entry vector laid out as one row of 40: the entry in column c is the vector's entry c. -/
theorem reshape40_eq (b : FVec Ideal S40 .f32) : shapeCast S1x40 b shapeCasts_S40_S1x40 = Cert.Gcn.asRow b := by
  funext j
  obtain ⟨u, c, rfl⟩ : ∃ (u : Fin 1) (c : Fin 40), j = ix2 u c := ⟨j 0, j 1, eq_ix2 j⟩
  exact shapeCast_a_1a_apply b shapeCasts_S40_S1x40 u c

/-- The 512 × 64 weight matrix in the narrower format is, entry by entry, the matrix itself. -/
theorem convert1_eq (W : FVec Ideal S512x64 .f32) :
    (truncf .bf16 W bitsLt_bf16_f32 : FVec Ideal S512x64 .bf16) = W := rfl

/-- The 64 × 40 weight matrix in the narrower format is, entry by entry, the matrix itself. -/
theorem convert2_eq (W : FVec Ideal S64x40 .f32) :
    (truncf .bf16 W bitsLt_bf16_f32 : FVec Ideal S64x40 .bf16) = W := rfl

end Cert.KernelIdeal.Layout

end
-- ==== Proof.KernelChain.lean ====
/-
  The idealized kernel program's result as one function of its arguments.

  The program's buffers are followed boundary by boundary.  First the bookkeeping: no host operation and no
  kernel writes an argument array, and the four small arrays the first host stretch prepares (the two weight
  matrices in the narrower float format — the same extended reals — and the two biases laid out as one-row
  matrices) are not written again, so each of them is read, wherever a later stage needs it, as it was first
  left.  Then the five kernels, each leaving in its result array ONE whole-array function of the arrays it
  found (a row-by-column product; a bias and a maximum with zero; a second product; a bias; the row-wise
  log-softmax), and between them the three sparse products, which the host computes and which are carried
  here as the named composites `spmm64`, `spmm40`, `spmmP` of the arrays they read.  Composed, the result
  array ends holding `network` of the eleven arguments.
-/
import proofs.«157696_j36283883717325_1_alg».proof.Proof.Gen.KernelIdeal.Frame
import proofs.«157696_j36283883717325_1_alg».proof.Proof.Spec
import proofs.«157696_j36283883717325_1_alg».proof.Proof.Dense1
import proofs.«157696_j36283883717325_1_alg».proof.Proof.BiasRelu
import proofs.«157696_j36283883717325_1_alg».proof.Proof.Dense2
import proofs.«157696_j36283883717325_1_alg».proof.Proof.BiasAdd
import proofs.«157696_j36283883717325_1_alg».proof.Proof.SoftmaxRows
import proofs.«157696_j36283883717325_1_alg».proof.Proof.KernelLayout
import Idealize.ShloMosaic.Lib.StableHlo.Run
import Idealize.ShloMosaic.Lib.ValueIdx

set_option maxRecDepth 16384

noncomputable section

namespace Cert.KernelIdeal.Chain

open Idealize.ShloMosaic Idealize.ShloMosaic.TcCoe Idealize.ShloMosaic.ValueIdx Idealize.SL.Sem
open Idealize.ShloMosaic.StableHlo
open Cert.KernelIdeal Cert.KernelIdeal.Gen Cert.Gcn

variable (m : (ℓ : Loc nD τ sig) → Buf (Elt Ideal) ℓ) (ρ : Dev nD → PrngReg) (c : Dev nD)

/-! ## Buffers that are written once, or never, read where a later stage needs them -/

theorem at1_main_arg1 : W1 m ρ c (Proc.devRef .tc main_arg1) = m ((c : Thread nD τ).loc main_arg1) := by
  show StableHlo.after hostOps0 (W0 m ρ c) (Proc.devRef .tc main_arg1) = _
  after_results <;> rfl
theorem at2_main_arg1 : W2 m ρ c (Proc.devRef .tc main_arg1) = m ((c : Thread nD τ).loc main_arg1) :=
  (W2_of_ne m ρ c main_arg1 (by decide)).trans (at1_main_arg1 m ρ c)
theorem at3_main_arg1 : W3 m ρ c (Proc.devRef .tc main_arg1) = m ((c : Thread nD τ).loc main_arg1) := by
  show StableHlo.after hostOps1 (W2 m ρ c) (Proc.devRef .tc main_arg1) = _
  after_results
  exact at2_main_arg1 m ρ c
theorem at4_main_arg1 : W4 m ρ c (Proc.devRef .tc main_arg1) = m ((c : Thread nD τ).loc main_arg1) :=
  (W4_of_ne m ρ c main_arg1 (by decide)).trans (at3_main_arg1 m ρ c)
theorem at5_main_arg1 : W5 m ρ c (Proc.devRef .tc main_arg1) = m ((c : Thread nD τ).loc main_arg1) :=
  (W5_of_ne m ρ c main_arg1 (by decide)).trans (at4_main_arg1 m ρ c)
theorem at1_main_arg2 : W1 m ρ c (Proc.devRef .tc main_arg2) = m ((c : Thread nD τ).loc main_arg2) := by
  show StableHlo.after hostOps0 (W0 m ρ c) (Proc.devRef .tc main_arg2) = _
  after_results <;> rfl
theorem at2_main_arg2 : W2 m ρ c (Proc.devRef .tc main_arg2) = m ((c : Thread nD τ).loc main_arg2) :=
  (W2_of_ne m ρ c main_arg2 (by decide)).trans (at1_main_arg2 m ρ c)
theorem at3_main_arg2 : W3 m ρ c (Proc.devRef .tc main_arg2) = m ((c : Thread nD τ).loc main_arg2) := by
  show StableHlo.after hostOps1 (W2 m ρ c) (Proc.devRef .tc main_arg2) = _
  after_results
  exact at2_main_arg2 m ρ c
theorem at4_main_arg2 : W4 m ρ c (Proc.devRef .tc main_arg2) = m ((c : Thread nD τ).loc main_arg2) :=
  (W4_of_ne m ρ c main_arg2 (by decide)).trans (at3_main_arg2 m ρ c)
theorem at5_main_arg2 : W5 m ρ c (Proc.devRef .tc main_arg2) = m ((c : Thread nD τ).loc main_arg2) :=
  (W5_of_ne m ρ c main_arg2 (by decide)).trans (at4_main_arg2 m ρ c)
theorem at1_main_arg3 : W1 m ρ c (Proc.devRef .tc main_arg3) = m ((c : Thread nD τ).loc main_arg3) := by
  show StableHlo.after hostOps0 (W0 m ρ c) (Proc.devRef .tc main_arg3) = _
  after_results <;> rfl
theorem at2_main_arg3 : W2 m ρ c (Proc.devRef .tc main_arg3) = m ((c : Thread nD τ).loc main_arg3) :=
  (W2_of_ne m ρ c main_arg3 (by decide)).trans (at1_main_arg3 m ρ c)
theorem at3_main_arg3 : W3 m ρ c (Proc.devRef .tc main_arg3) = m ((c : Thread nD τ).loc main_arg3) := by
  show StableHlo.after hostOps1 (W2 m ρ c) (Proc.devRef .tc main_arg3) = _
  after_results
  exact at2_main_arg3 m ρ c
theorem at4_main_arg3 : W4 m ρ c (Proc.devRef .tc main_arg3) = m ((c : Thread nD τ).loc main_arg3) :=
  (W4_of_ne m ρ c main_arg3 (by decide)).trans (at3_main_arg3 m ρ c)
theorem at5_main_arg3 : W5 m ρ c (Proc.devRef .tc main_arg3) = m ((c : Thread nD τ).loc main_arg3) :=
  (W5_of_ne m ρ c main_arg3 (by decide)).trans (at4_main_arg3 m ρ c)
theorem at1_main_arg4 : W1 m ρ c (Proc.devRef .tc main_arg4) = m ((c : Thread nD τ).loc main_arg4) := by
  show StableHlo.after hostOps0 (W0 m ρ c) (Proc.devRef .tc main_arg4) = _
  after_results <;> rfl
theorem at2_main_arg4 : W2 m ρ c (Proc.devRef .tc main_arg4) = m ((c : Thread nD τ).loc main_arg4) :=
  (W2_of_ne m ρ c main_arg4 (by decide)).trans (at1_main_arg4 m ρ c)
theorem at3_main_arg4 : W3 m ρ c (Proc.devRef .tc main_arg4) = m ((c : Thread nD τ).loc main_arg4) := by
  show StableHlo.after hostOps1 (W2 m ρ c) (Proc.devRef .tc main_arg4) = _
  after_results
  exact at2_main_arg4 m ρ c
theorem at4_main_arg4 : W4 m ρ c (Proc.devRef .tc main_arg4) = m ((c : Thread nD τ).loc main_arg4) :=
  (W4_of_ne m ρ c main_arg4 (by decide)).trans (at3_main_arg4 m ρ c)
theorem at5_main_arg4 : W5 m ρ c (Proc.devRef .tc main_arg4) = m ((c : Thread nD τ).loc main_arg4) :=
  (W5_of_ne m ρ c main_arg4 (by decide)).trans (at4_main_arg4 m ρ c)
theorem at6_main_arg4 : W6 m ρ c (Proc.devRef .tc main_arg4) = m ((c : Thread nD τ).loc main_arg4) := by
  show StableHlo.after hostOps3 (W5 m ρ c) (Proc.devRef .tc main_arg4) = _
  after_results
  exact at5_main_arg4 m ρ c
theorem at7_main_arg4 : W7 m ρ c (Proc.devRef .tc main_arg4) = m ((c : Thread nD τ).loc main_arg4) :=
  (W7_of_ne m ρ c main_arg4 (by decide)).trans (at6_main_arg4 m ρ c)
theorem at1_main_arg5 : W1 m ρ c (Proc.devRef .tc main_arg5) = m ((c : Thread nD τ).loc main_arg5) := by
  show StableHlo.after hostOps0 (W0 m ρ c) (Proc.devRef .tc main_arg5) = _
  after_results <;> rfl
theorem at2_main_arg5 : W2 m ρ c (Proc.devRef .tc main_arg5) = m ((c : Thread nD τ).loc main_arg5) :=
  (W2_of_ne m ρ c main_arg5 (by decide)).trans (at1_main_arg5 m ρ c)
theorem at3_main_arg5 : W3 m ρ c (Proc.devRef .tc main_arg5) = m ((c : Thread nD τ).loc main_arg5) := by
  show StableHlo.after hostOps1 (W2 m ρ c) (Proc.devRef .tc main_arg5) = _
  after_results
  exact at2_main_arg5 m ρ c
theorem at4_main_arg5 : W4 m ρ c (Proc.devRef .tc main_arg5) = m ((c : Thread nD τ).loc main_arg5) :=
  (W4_of_ne m ρ c main_arg5 (by decide)).trans (at3_main_arg5 m ρ c)
theorem at5_main_arg5 : W5 m ρ c (Proc.devRef .tc main_arg5) = m ((c : Thread nD τ).loc main_arg5) :=
  (W5_of_ne m ρ c main_arg5 (by decide)).trans (at4_main_arg5 m ρ c)
theorem at6_main_arg5 : W6 m ρ c (Proc.devRef .tc main_arg5) = m ((c : Thread nD τ).loc main_arg5) := by
  show StableHlo.after hostOps3 (W5 m ρ c) (Proc.devRef .tc main_arg5) = _
  after_results
  exact at5_main_arg5 m ρ c
theorem at7_main_arg5 : W7 m ρ c (Proc.devRef .tc main_arg5) = m ((c : Thread nD τ).loc main_arg5) :=
  (W7_of_ne m ρ c main_arg5 (by decide)).trans (at6_main_arg5 m ρ c)
theorem at1_main_arg6 : W1 m ρ c (Proc.devRef .tc main_arg6) = m ((c : Thread nD τ).loc main_arg6) := by
  show StableHlo.after hostOps0 (W0 m ρ c) (Proc.devRef .tc main_arg6) = _
  after_results <;> rfl
theorem at2_main_arg6 : W2 m ρ c (Proc.devRef .tc main_arg6) = m ((c : Thread nD τ).loc main_arg6) :=
  (W2_of_ne m ρ c main_arg6 (by decide)).trans (at1_main_arg6 m ρ c)
theorem at3_main_arg6 : W3 m ρ c (Proc.devRef .tc main_arg6) = m ((c : Thread nD τ).loc main_arg6) := by
  show StableHlo.after hostOps1 (W2 m ρ c) (Proc.devRef .tc main_arg6) = _
  after_results
  exact at2_main_arg6 m ρ c
theorem at4_main_arg6 : W4 m ρ c (Proc.devRef .tc main_arg6) = m ((c : Thread nD τ).loc main_arg6) :=
  (W4_of_ne m ρ c main_arg6 (by decide)).trans (at3_main_arg6 m ρ c)
theorem at5_main_arg6 : W5 m ρ c (Proc.devRef .tc main_arg6) = m ((c : Thread nD τ).loc main_arg6) :=
  (W5_of_ne m ρ c main_arg6 (by decide)).trans (at4_main_arg6 m ρ c)
theorem at6_main_arg6 : W6 m ρ c (Proc.devRef .tc main_arg6) = m ((c : Thread nD τ).loc main_arg6) := by
  show StableHlo.after hostOps3 (W5 m ρ c) (Proc.devRef .tc main_arg6) = _
  after_results
  exact at5_main_arg6 m ρ c
theorem at7_main_arg6 : W7 m ρ c (Proc.devRef .tc main_arg6) = m ((c : Thread nD τ).loc main_arg6) :=
  (W7_of_ne m ρ c main_arg6 (by decide)).trans (at6_main_arg6 m ρ c)
theorem at1_main_arg0 : W1 m ρ c (Proc.devRef .tc main_arg0) = m ((c : Thread nD τ).loc main_arg0) := by
  show StableHlo.after hostOps0 (W0 m ρ c) (Proc.devRef .tc main_arg0) = _
  after_results <;> rfl
theorem at1_main_v0 : W1 m ρ c (Proc.devRef .tc main_v0) = (truncf .bf16 (m ((c : Thread nD τ).loc main_arg7)) bitsLt_bf16_f32 : FVec Ideal S512x64 .bf16) := by
  show StableHlo.after hostOps0 (W0 m ρ c) (Proc.devRef .tc main_v0) = _
  after_results <;> rfl
theorem at1_main_v1 : W1 m ρ c (Proc.devRef .tc main_v1) = (truncf .bf16 (m ((c : Thread nD τ).loc main_arg9)) bitsLt_bf16_f32 : FVec Ideal S64x40 .bf16) := by
  show StableHlo.after hostOps0 (W0 m ρ c) (Proc.devRef .tc main_v1) = _
  after_results <;> rfl
theorem at2_main_v1 : W2 m ρ c (Proc.devRef .tc main_v1) = (truncf .bf16 (m ((c : Thread nD τ).loc main_arg9)) bitsLt_bf16_f32 : FVec Ideal S64x40 .bf16) :=
  (W2_of_ne m ρ c main_v1 (by decide)).trans (at1_main_v1 m ρ c)
theorem at3_main_v1 : W3 m ρ c (Proc.devRef .tc main_v1) = (truncf .bf16 (m ((c : Thread nD τ).loc main_arg9)) bitsLt_bf16_f32 : FVec Ideal S64x40 .bf16) := by
  show StableHlo.after hostOps1 (W2 m ρ c) (Proc.devRef .tc main_v1) = _
  after_results
  exact at2_main_v1 m ρ c
theorem at4_main_v1 : W4 m ρ c (Proc.devRef .tc main_v1) = (truncf .bf16 (m ((c : Thread nD τ).loc main_arg9)) bitsLt_bf16_f32 : FVec Ideal S64x40 .bf16) :=
  (W4_of_ne m ρ c main_v1 (by decide)).trans (at3_main_v1 m ρ c)
theorem at1_main_v2 : W1 m ρ c (Proc.devRef .tc main_v2) = (shapeCast S1x64 (m ((c : Thread nD τ).loc main_arg8)) shapeCasts_S64_S1x64 : FVec Ideal S1x64 .f32) := by
  show StableHlo.after hostOps0 (W0 m ρ c) (Proc.devRef .tc main_v2) = _
  after_results <;> rfl
theorem at2_main_v2 : W2 m ρ c (Proc.devRef .tc main_v2) = (shapeCast S1x64 (m ((c : Thread nD τ).loc main_arg8)) shapeCasts_S64_S1x64 : FVec Ideal S1x64 .f32) :=
  (W2_of_ne m ρ c main_v2 (by decide)).trans (at1_main_v2 m ρ c)
theorem at3_main_v2 : W3 m ρ c (Proc.devRef .tc main_v2) = (shapeCast S1x64 (m ((c : Thread nD τ).loc main_arg8)) shapeCasts_S64_S1x64 : FVec Ideal S1x64 .f32) := by
  show StableHlo.after hostOps1 (W2 m ρ c) (Proc.devRef .tc main_v2) = _
  after_results
  exact at2_main_v2 m ρ c
theorem at1_main_v3 : W1 m ρ c (Proc.devRef .tc main_v3) = (shapeCast S1x40 (m ((c : Thread nD τ).loc main_arg10)) shapeCasts_S40_S1x40 : FVec Ideal S1x40 .f32) := by
  show StableHlo.after hostOps0 (W0 m ρ c) (Proc.devRef .tc main_v3) = _
  after_results <;> rfl
theorem at2_main_v3 : W2 m ρ c (Proc.devRef .tc main_v3) = (shapeCast S1x40 (m ((c : Thread nD τ).loc main_arg10)) shapeCasts_S40_S1x40 : FVec Ideal S1x40 .f32) :=
  (W2_of_ne m ρ c main_v3 (by decide)).trans (at1_main_v3 m ρ c)
theorem at3_main_v3 : W3 m ρ c (Proc.devRef .tc main_v3) = (shapeCast S1x40 (m ((c : Thread nD τ).loc main_arg10)) shapeCasts_S40_S1x40 : FVec Ideal S1x40 .f32) := by
  show StableHlo.after hostOps1 (W2 m ρ c) (Proc.devRef .tc main_v3) = _
  after_results
  exact at2_main_v3 m ρ c
theorem at4_main_v3 : W4 m ρ c (Proc.devRef .tc main_v3) = (shapeCast S1x40 (m ((c : Thread nD τ).loc main_arg10)) shapeCasts_S40_S1x40 : FVec Ideal S1x40 .f32) :=
  (W4_of_ne m ρ c main_v3 (by decide)).trans (at3_main_v3 m ρ c)
theorem at5_main_v3 : W5 m ρ c (Proc.devRef .tc main_v3) = (shapeCast S1x40 (m ((c : Thread nD τ).loc main_arg10)) shapeCasts_S40_S1x40 : FVec Ideal S1x40 .f32) :=
  (W5_of_ne m ρ c main_v3 (by decide)).trans (at4_main_v3 m ρ c)
theorem at6_main_v3 : W6 m ρ c (Proc.devRef .tc main_v3) = (shapeCast S1x40 (m ((c : Thread nD τ).loc main_arg10)) shapeCasts_S40_S1x40 : FVec Ideal S1x40 .f32) := by
  show StableHlo.after hostOps3 (W5 m ρ c) (Proc.devRef .tc main_v3) = _
  after_results
  exact at5_main_v3 m ρ c

/-! ## The stages -/

/-- After the first kernel: the product of the features with the first weight matrix. -/
theorem stage_t1 : W2 m ρ c (Proc.devRef .tc main_v4)
    = matProd (n := 100000) (k := 512) (l := 64) (m ((c : Thread nD τ).loc main_arg0)) (m ((c : Thread nD τ).loc main_arg7)) := by
  refine (W2_arr m ρ c 2).trans ?_
  rw [Dense1.result (V1 m ρ) c]
  show matProd (n := 100000) (k := 512) (l := 64) (W1 m ρ c (Proc.devRef .tc main_arg0)) (W1 m ρ c (Proc.devRef .tc main_v0)) = _
  rw [at1_main_arg0, at1_main_v0]
  rfl

set_option maxHeartbeats 2000000 in
/-- After the first sparse product. -/
theorem stage_s1 : W3 m ρ c (Proc.devRef .tc main_v17)
    = spmm64 (m ((c : Thread nD τ).loc main_arg1)) (m ((c : Thread nD τ).loc main_arg2)) (m ((c : Thread nD τ).loc main_arg3))
        (matProd (n := 100000) (k := 512) (l := 64) (m ((c : Thread nD τ).loc main_arg0)) (m ((c : Thread nD τ).loc main_arg7))) := by
  show StableHlo.after hostOps1 (W2 m ρ c) (Proc.devRef .tc main_v17) = _
  after_results_simp
  rw [at2_main_arg1, at2_main_arg2, at2_main_arg3, stage_t1]
  rfl

/-- After the second kernel: the bias added and the maximum with zero taken. -/
theorem stage_h1 : W4 m ρ c (Proc.devRef .tc main_v18)
    = relu (addRow (spmm64 (m ((c : Thread nD τ).loc main_arg1)) (m ((c : Thread nD τ).loc main_arg2)) (m ((c : Thread nD τ).loc main_arg3))
        (matProd (n := 100000) (k := 512) (l := 64) (m ((c : Thread nD τ).loc main_arg0)) (m ((c : Thread nD τ).loc main_arg7)))) (asRow (m ((c : Thread nD τ).loc main_arg8)))) := by
  refine (W4_arr m ρ c 2).trans ?_
  rw [BiasRelu.result (V3 m ρ) c]
  show relu (addRow (n := 100000) (l := 64) (W3 m ρ c (Proc.devRef .tc main_v17)) (W3 m ρ c (Proc.devRef .tc main_v2))) = _
  rw [stage_s1, at3_main_v2, Layout.reshape64_eq]

/-- After the third kernel: the product with the second weight matrix. -/
theorem stage_t2 : W5 m ρ c (Proc.devRef .tc main_v19)
    = matProd (n := 100000) (k := 64) (l := 40) (relu (addRow (spmm64 (m ((c : Thread nD τ).loc main_arg1)) (m ((c : Thread nD τ).loc main_arg2)) (m ((c : Thread nD τ).loc main_arg3))
        (matProd (n := 100000) (k := 512) (l := 64) (m ((c : Thread nD τ).loc main_arg0)) (m ((c : Thread nD τ).loc main_arg7)))) (asRow (m ((c : Thread nD τ).loc main_arg8))))) (m ((c : Thread nD τ).loc main_arg9)) := by
  refine (W5_arr m ρ c 2).trans ?_
  rw [Dense2.result (V4 m ρ) c]
  show matProd (n := 100000) (k := 64) (l := 40) (W4 m ρ c (Proc.devRef .tc main_v18)) (W4 m ρ c (Proc.devRef .tc main_v1)) = _
  rw [stage_h1, at4_main_v1]
  rfl

set_option maxHeartbeats 2000000 in
/-- After the second sparse product. -/
theorem stage_s2 : W6 m ρ c (Proc.devRef .tc main_v32)
    = spmm40 (m ((c : Thread nD τ).loc main_arg1)) (m ((c : Thread nD τ).loc main_arg2)) (m ((c : Thread nD τ).loc main_arg3))
        (matProd (n := 100000) (k := 64) (l := 40) (relu (addRow (spmm64 (m ((c : Thread nD τ).loc main_arg1)) (m ((c : Thread nD τ).loc main_arg2)) (m ((c : Thread nD τ).loc main_arg3))
          (matProd (n := 100000) (k := 512) (l := 64) (m ((c : Thread nD τ).loc main_arg0)) (m ((c : Thread nD τ).loc main_arg7)))) (asRow (m ((c : Thread nD τ).loc main_arg8))))) (m ((c : Thread nD τ).loc main_arg9))) := by
  show StableHlo.after hostOps3 (W5 m ρ c) (Proc.devRef .tc main_v32) = _
  after_results_simp
  rw [at5_main_arg1, at5_main_arg2, at5_main_arg3, stage_t2]
  rfl

/-- After the fourth kernel: the second bias added. -/
theorem stage_h2 : W7 m ρ c (Proc.devRef .tc main_v33)
    = addRow (spmm40 (m ((c : Thread nD τ).loc main_arg1)) (m ((c : Thread nD τ).loc main_arg2)) (m ((c : Thread nD τ).loc main_arg3))
        (matProd (n := 100000) (k := 64) (l := 40) (relu (addRow (spmm64 (m ((c : Thread nD τ).loc main_arg1)) (m ((c : Thread nD τ).loc main_arg2)) (m ((c : Thread nD τ).loc main_arg3))
          (matProd (n := 100000) (k := 512) (l := 64) (m ((c : Thread nD τ).loc main_arg0)) (m ((c : Thread nD τ).loc main_arg7)))) (asRow (m ((c : Thread nD τ).loc main_arg8))))) (m ((c : Thread nD τ).loc main_arg9))))
        (asRow (m ((c : Thread nD τ).loc main_arg10))) := by
  refine (W7_arr m ρ c 2).trans ?_
  rw [BiasAdd.result (V6 m ρ) c]
  show addRow (n := 100000) (l := 40) (W6 m ρ c (Proc.devRef .tc main_v32)) (W6 m ρ c (Proc.devRef .tc main_v3)) = _
  rw [stage_s2, at6_main_v3, Layout.reshape40_eq]

set_option maxHeartbeats 2000000 in
/-- After the third sparse product. -/
theorem stage_out : W8 m ρ c (Proc.devRef .tc main_v46)
    = spmmP (m ((c : Thread nD τ).loc main_arg4)) (m ((c : Thread nD τ).loc main_arg5)) (m ((c : Thread nD τ).loc main_arg6))
        (addRow (spmm40 (m ((c : Thread nD τ).loc main_arg1)) (m ((c : Thread nD τ).loc main_arg2)) (m ((c : Thread nD τ).loc main_arg3))
          (matProd (n := 100000) (k := 64) (l := 40) (relu (addRow (spmm64 (m ((c : Thread nD τ).loc main_arg1)) (m ((c : Thread nD τ).loc main_arg2)) (m ((c : Thread nD τ).loc main_arg3))
            (matProd (n := 100000) (k := 512) (l := 64) (m ((c : Thread nD τ).loc main_arg0)) (m ((c : Thread nD τ).loc main_arg7)))) (asRow (m ((c : Thread nD τ).loc main_arg8))))) (m ((c : Thread nD τ).loc main_arg9))))
          (asRow (m ((c : Thread nD τ).loc main_arg10)))) := by
  show StableHlo.after hostOps4 (W7 m ρ c) (Proc.devRef .tc main_v46) = _
  after_results_simp
  rw [at7_main_arg4, at7_main_arg5, at7_main_arg6, stage_h2]
  rfl

/-- THE RESULT ARRAY when the program returns: `network` of the eleven argument arrays. -/
theorem result : W9 m ρ c (Proc.devRef .tc main_v47)
    = network (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W9_arr m ρ c 1).trans ?_
  rw [SoftmaxRows.result (V8 m ρ) c]
  show logSoftmax (n := 100000) (l := 40) (W8 m ρ c (Proc.devRef .tc main_v46)) = _
  rw [stage_out]
  rfl

end Cert.KernelIdeal.Chain

end
-- ==== Proof.RefCasts.lean ====
/-
  The reference calls two small functions (the maximum with zero, and the row-wise log-softmax); their
  operations are stated over buffers that carry the type of the value they hold, and a value passes into and
  out of such a buffer along the equation between the buffer's own type and the carried one.  For every buffer
  of the two calls that equation holds by computation, so the passage is the identity: one pair of equations
  per buffer (a value moved along an equation of types is that value).
-/
import proofs.«157696_j36283883717325_1_alg».proof.Proof.Gen.ReferenceIdeal
import Idealize.ShloMosaic.Lib.StableHlo.Run

noncomputable section

namespace Cert.ReferenceIdeal.Casts

open Cert.ReferenceIdeal Cert.ReferenceIdeal.Gen Idealize.ShloMosaic Idealize.ShloMosaic.TcCoe Idealize.SL.Sem Idealize.ShloMosaic.StableHlo

variable {F : FTy → Type} [FloatOps F]

theorem toBuf_main_call0_cst (h1 : main_call0_cst.ty = (⟨S_, .f32⟩ : BufTy)) (h2 : main_call0_cst.space ≠ .host) (h3 : main_call0_cst.isScoped = false)
    (v : (⟨S_, .f32⟩ : BufTy).Contents (Elt F)) : (TRef.of (sig := sig) main_call0_cst h1 h2 h3).toBuf v = v := eq_of_heq (cast_heq _ _)
theorem ofBuf_main_call0_cst (h1 : main_call0_cst.ty = (⟨S_, .f32⟩ : BufTy)) (h2 : main_call0_cst.space ≠ .host) (h3 : main_call0_cst.isScoped = false)
    (v : (⟨S_, .f32⟩ : BufTy).Contents (Elt F)) : (TRef.of (sig := sig) main_call0_cst h1 h2 h3).ofBuf v = v := eq_of_heq (cast_heq _ _)
theorem toBuf_main_call0_v0 (h1 : main_call0_v0.ty = (⟨S100000x64, .f32⟩ : BufTy)) (h2 : main_call0_v0.space ≠ .host) (h3 : main_call0_v0.isScoped = false)
    (v : (⟨S100000x64, .f32⟩ : BufTy).Contents (Elt F)) : (TRef.of (sig := sig) main_call0_v0 h1 h2 h3).toBuf v = v := eq_of_heq (cast_heq _ _)
theorem ofBuf_main_call0_v0 (h1 : main_call0_v0.ty = (⟨S100000x64, .f32⟩ : BufTy)) (h2 : main_call0_v0.space ≠ .host) (h3 : main_call0_v0.isScoped = false)
    (v : (⟨S100000x64, .f32⟩ : BufTy).Contents (Elt F)) : (TRef.of (sig := sig) main_call0_v0 h1 h2 h3).ofBuf v = v := eq_of_heq (cast_heq _ _)
theorem toBuf_main_v16 (h1 : main_v16.ty = (⟨S100000x64, .f32⟩ : BufTy)) (h2 : main_v16.space ≠ .host) (h3 : main_v16.isScoped = false)
    (v : (⟨S100000x64, .f32⟩ : BufTy).Contents (Elt F)) : (TRef.of (sig := sig) main_v16 h1 h2 h3).toBuf v = v := eq_of_heq (cast_heq _ _)
theorem ofBuf_main_v16 (h1 : main_v16.ty = (⟨S100000x64, .f32⟩ : BufTy)) (h2 : main_v16.space ≠ .host) (h3 : main_v16.isScoped = false)
    (v : (⟨S100000x64, .f32⟩ : BufTy).Contents (Elt F)) : (TRef.of (sig := sig) main_v16 h1 h2 h3).ofBuf v = v := eq_of_heq (cast_heq _ _)
theorem toBuf_main_v17 (h1 : main_v17.ty = (⟨S100000x64, .f32⟩ : BufTy)) (h2 : main_v17.space ≠ .host) (h3 : main_v17.isScoped = false)
    (v : (⟨S100000x64, .f32⟩ : BufTy).Contents (Elt F)) : (TRef.of (sig := sig) main_v17 h1 h2 h3).toBuf v = v := eq_of_heq (cast_heq _ _)
theorem ofBuf_main_v17 (h1 : main_v17.ty = (⟨S100000x64, .f32⟩ : BufTy)) (h2 : main_v17.space ≠ .host) (h3 : main_v17.isScoped = false)
    (v : (⟨S100000x64, .f32⟩ : BufTy).Contents (Elt F)) : (TRef.of (sig := sig) main_v17 h1 h2 h3).ofBuf v = v := eq_of_heq (cast_heq _ _)
theorem toBuf_main_v47 (h1 : main_v47.ty = (⟨S100000x40, .f32⟩ : BufTy)) (h2 : main_v47.space ≠ .host) (h3 : main_v47.isScoped = false)
    (v : (⟨S100000x40, .f32⟩ : BufTy).Contents (Elt F)) : (TRef.of (sig := sig) main_v47 h1 h2 h3).toBuf v = v := eq_of_heq (cast_heq _ _)
theorem ofBuf_main_v47 (h1 : main_v47.ty = (⟨S100000x40, .f32⟩ : BufTy)) (h2 : main_v47.space ≠ .host) (h3 : main_v47.isScoped = false)
    (v : (⟨S100000x40, .f32⟩ : BufTy).Contents (Elt F)) : (TRef.of (sig := sig) main_v47 h1 h2 h3).ofBuf v = v := eq_of_heq (cast_heq _ _)
theorem toBuf_main_call1_cst (h1 : main_call1_cst.ty = (⟨S_, .f32⟩ : BufTy)) (h2 : main_call1_cst.space ≠ .host) (h3 : main_call1_cst.isScoped = false)
    (v : (⟨S_, .f32⟩ : BufTy).Contents (Elt F)) : (TRef.of (sig := sig) main_call1_cst h1 h2 h3).toBuf v = v := eq_of_heq (cast_heq _ _)
theorem ofBuf_main_call1_cst (h1 : main_call1_cst.ty = (⟨S_, .f32⟩ : BufTy)) (h2 : main_call1_cst.space ≠ .host) (h3 : main_call1_cst.isScoped = false)
    (v : (⟨S_, .f32⟩ : BufTy).Contents (Elt F)) : (TRef.of (sig := sig) main_call1_cst h1 h2 h3).ofBuf v = v := eq_of_heq (cast_heq _ _)
theorem toBuf_main_call1_v0 (h1 : main_call1_v0.ty = (⟨S100000, .f32⟩ : BufTy)) (h2 : main_call1_v0.space ≠ .host) (h3 : main_call1_v0.isScoped = false)
    (v : (⟨S100000, .f32⟩ : BufTy).Contents (Elt F)) : (TRef.of (sig := sig) main_call1_v0 h1 h2 h3).toBuf v = v := eq_of_heq (cast_heq _ _)
theorem ofBuf_main_call1_v0 (h1 : main_call1_v0.ty = (⟨S100000, .f32⟩ : BufTy)) (h2 : main_call1_v0.space ≠ .host) (h3 : main_call1_v0.isScoped = false)
    (v : (⟨S100000, .f32⟩ : BufTy).Contents (Elt F)) : (TRef.of (sig := sig) main_call1_v0 h1 h2 h3).ofBuf v = v := eq_of_heq (cast_heq _ _)
theorem toBuf_main_call1_cst_0 (h1 : main_call1_cst_0.ty = (⟨S_, .f32⟩ : BufTy)) (h2 : main_call1_cst_0.space ≠ .host) (h3 : main_call1_cst_0.isScoped = false)
    (v : (⟨S_, .f32⟩ : BufTy).Contents (Elt F)) : (TRef.of (sig := sig) main_call1_cst_0 h1 h2 h3).toBuf v = v := eq_of_heq (cast_heq _ _)
theorem ofBuf_main_call1_cst_0 (h1 : main_call1_cst_0.ty = (⟨S_, .f32⟩ : BufTy)) (h2 : main_call1_cst_0.space ≠ .host) (h3 : main_call1_cst_0.isScoped = false)
    (v : (⟨S_, .f32⟩ : BufTy).Contents (Elt F)) : (TRef.of (sig := sig) main_call1_cst_0 h1 h2 h3).ofBuf v = v := eq_of_heq (cast_heq _ _)
theorem toBuf_main_call1_v1 (h1 : main_call1_v1.ty = (⟨S100000, .f32⟩ : BufTy)) (h2 : main_call1_v1.space ≠ .host) (h3 : main_call1_v1.isScoped = false)
    (v : (⟨S100000, .f32⟩ : BufTy).Contents (Elt F)) : (TRef.of (sig := sig) main_call1_v1 h1 h2 h3).toBuf v = v := eq_of_heq (cast_heq _ _)
theorem ofBuf_main_call1_v1 (h1 : main_call1_v1.ty = (⟨S100000, .f32⟩ : BufTy)) (h2 : main_call1_v1.space ≠ .host) (h3 : main_call1_v1.isScoped = false)
    (v : (⟨S100000, .f32⟩ : BufTy).Contents (Elt F)) : (TRef.of (sig := sig) main_call1_v1 h1 h2 h3).ofBuf v = v := eq_of_heq (cast_heq _ _)
theorem toBuf_main_call1_v2 (h1 : main_call1_v2.ty = (⟨S100000, .f32⟩ : BufTy)) (h2 : main_call1_v2.space ≠ .host) (h3 : main_call1_v2.isScoped = false)
    (v : (⟨S100000, .f32⟩ : BufTy).Contents (Elt F)) : (TRef.of (sig := sig) main_call1_v2 h1 h2 h3).toBuf v = v := eq_of_heq (cast_heq _ _)
theorem ofBuf_main_call1_v2 (h1 : main_call1_v2.ty = (⟨S100000, .f32⟩ : BufTy)) (h2 : main_call1_v2.space ≠ .host) (h3 : main_call1_v2.isScoped = false)
    (v : (⟨S100000, .f32⟩ : BufTy).Contents (Elt F)) : (TRef.of (sig := sig) main_call1_v2 h1 h2 h3).ofBuf v = v := eq_of_heq (cast_heq _ _)
theorem toBuf_main_call1_v3 (h1 : main_call1_v3.ty = (⟨S100000x1, .f32⟩ : BufTy)) (h2 : main_call1_v3.space ≠ .host) (h3 : main_call1_v3.isScoped = false)
    (v : (⟨S100000x1, .f32⟩ : BufTy).Contents (Elt F)) : (TRef.of (sig := sig) main_call1_v3 h1 h2 h3).toBuf v = v := eq_of_heq (cast_heq _ _)
theorem ofBuf_main_call1_v3 (h1 : main_call1_v3.ty = (⟨S100000x1, .f32⟩ : BufTy)) (h2 : main_call1_v3.space ≠ .host) (h3 : main_call1_v3.isScoped = false)
    (v : (⟨S100000x1, .f32⟩ : BufTy).Contents (Elt F)) : (TRef.of (sig := sig) main_call1_v3 h1 h2 h3).ofBuf v = v := eq_of_heq (cast_heq _ _)
theorem toBuf_main_call1_v4 (h1 : main_call1_v4.ty = (⟨S100000x40, .f32⟩ : BufTy)) (h2 : main_call1_v4.space ≠ .host) (h3 : main_call1_v4.isScoped = false)
    (v : (⟨S100000x40, .f32⟩ : BufTy).Contents (Elt F)) : (TRef.of (sig := sig) main_call1_v4 h1 h2 h3).toBuf v = v := eq_of_heq (cast_heq _ _)
theorem ofBuf_main_call1_v4 (h1 : main_call1_v4.ty = (⟨S100000x40, .f32⟩ : BufTy)) (h2 : main_call1_v4.space ≠ .host) (h3 : main_call1_v4.isScoped = false)
    (v : (⟨S100000x40, .f32⟩ : BufTy).Contents (Elt F)) : (TRef.of (sig := sig) main_call1_v4 h1 h2 h3).ofBuf v = v := eq_of_heq (cast_heq _ _)
theorem toBuf_main_call1_v5 (h1 : main_call1_v5.ty = (⟨S100000x40, .f32⟩ : BufTy)) (h2 : main_call1_v5.space ≠ .host) (h3 : main_call1_v5.isScoped = false)
    (v : (⟨S100000x40, .f32⟩ : BufTy).Contents (Elt F)) : (TRef.of (sig := sig) main_call1_v5 h1 h2 h3).toBuf v = v := eq_of_heq (cast_heq _ _)
theorem ofBuf_main_call1_v5 (h1 : main_call1_v5.ty = (⟨S100000x40, .f32⟩ : BufTy)) (h2 : main_call1_v5.space ≠ .host) (h3 : main_call1_v5.isScoped = false)
    (v : (⟨S100000x40, .f32⟩ : BufTy).Contents (Elt F)) : (TRef.of (sig := sig) main_call1_v5 h1 h2 h3).ofBuf v = v := eq_of_heq (cast_heq _ _)
theorem toBuf_main_call1_v6 (h1 : main_call1_v6.ty = (⟨S100000x40, .f32⟩ : BufTy)) (h2 : main_call1_v6.space ≠ .host) (h3 : main_call1_v6.isScoped = false)
    (v : (⟨S100000x40, .f32⟩ : BufTy).Contents (Elt F)) : (TRef.of (sig := sig) main_call1_v6 h1 h2 h3).toBuf v = v := eq_of_heq (cast_heq _ _)
theorem ofBuf_main_call1_v6 (h1 : main_call1_v6.ty = (⟨S100000x40, .f32⟩ : BufTy)) (h2 : main_call1_v6.space ≠ .host) (h3 : main_call1_v6.isScoped = false)
    (v : (⟨S100000x40, .f32⟩ : BufTy).Contents (Elt F)) : (TRef.of (sig := sig) main_call1_v6 h1 h2 h3).ofBuf v = v := eq_of_heq (cast_heq _ _)
theorem toBuf_main_call1_cst_1 (h1 : main_call1_cst_1.ty = (⟨S_, .f32⟩ : BufTy)) (h2 : main_call1_cst_1.space ≠ .host) (h3 : main_call1_cst_1.isScoped = false)
    (v : (⟨S_, .f32⟩ : BufTy).Contents (Elt F)) : (TRef.of (sig := sig) main_call1_cst_1 h1 h2 h3).toBuf v = v := eq_of_heq (cast_heq _ _)
theorem ofBuf_main_call1_cst_1 (h1 : main_call1_cst_1.ty = (⟨S_, .f32⟩ : BufTy)) (h2 : main_call1_cst_1.space ≠ .host) (h3 : main_call1_cst_1.isScoped = false)
    (v : (⟨S_, .f32⟩ : BufTy).Contents (Elt F)) : (TRef.of (sig := sig) main_call1_cst_1 h1 h2 h3).ofBuf v = v := eq_of_heq (cast_heq _ _)
theorem toBuf_main_call1_v7 (h1 : main_call1_v7.ty = (⟨S100000, .f32⟩ : BufTy)) (h2 : main_call1_v7.space ≠ .host) (h3 : main_call1_v7.isScoped = false)
    (v : (⟨S100000, .f32⟩ : BufTy).Contents (Elt F)) : (TRef.of (sig := sig) main_call1_v7 h1 h2 h3).toBuf v = v := eq_of_heq (cast_heq _ _)
theorem ofBuf_main_call1_v7 (h1 : main_call1_v7.ty = (⟨S100000, .f32⟩ : BufTy)) (h2 : main_call1_v7.space ≠ .host) (h3 : main_call1_v7.isScoped = false)
    (v : (⟨S100000, .f32⟩ : BufTy).Contents (Elt F)) : (TRef.of (sig := sig) main_call1_v7 h1 h2 h3).ofBuf v = v := eq_of_heq (cast_heq _ _)
theorem toBuf_main_call1_v8 (h1 : main_call1_v8.ty = (⟨S100000x1, .f32⟩ : BufTy)) (h2 : main_call1_v8.space ≠ .host) (h3 : main_call1_v8.isScoped = false)
    (v : (⟨S100000x1, .f32⟩ : BufTy).Contents (Elt F)) : (TRef.of (sig := sig) main_call1_v8 h1 h2 h3).toBuf v = v := eq_of_heq (cast_heq _ _)
theorem ofBuf_main_call1_v8 (h1 : main_call1_v8.ty = (⟨S100000x1, .f32⟩ : BufTy)) (h2 : main_call1_v8.space ≠ .host) (h3 : main_call1_v8.isScoped = false)
    (v : (⟨S100000x1, .f32⟩ : BufTy).Contents (Elt F)) : (TRef.of (sig := sig) main_call1_v8 h1 h2 h3).ofBuf v = v := eq_of_heq (cast_heq _ _)
theorem toBuf_main_call1_v9 (h1 : main_call1_v9.ty = (⟨S100000x1, .f32⟩ : BufTy)) (h2 : main_call1_v9.space ≠ .host) (h3 : main_call1_v9.isScoped = false)
    (v : (⟨S100000x1, .f32⟩ : BufTy).Contents (Elt F)) : (TRef.of (sig := sig) main_call1_v9 h1 h2 h3).toBuf v = v := eq_of_heq (cast_heq _ _)
theorem ofBuf_main_call1_v9 (h1 : main_call1_v9.ty = (⟨S100000x1, .f32⟩ : BufTy)) (h2 : main_call1_v9.space ≠ .host) (h3 : main_call1_v9.isScoped = false)
    (v : (⟨S100000x1, .f32⟩ : BufTy).Contents (Elt F)) : (TRef.of (sig := sig) main_call1_v9 h1 h2 h3).ofBuf v = v := eq_of_heq (cast_heq _ _)
theorem toBuf_main_call1_v10 (h1 : main_call1_v10.ty = (⟨S100000x40, .f32⟩ : BufTy)) (h2 : main_call1_v10.space ≠ .host) (h3 : main_call1_v10.isScoped = false)
    (v : (⟨S100000x40, .f32⟩ : BufTy).Contents (Elt F)) : (TRef.of (sig := sig) main_call1_v10 h1 h2 h3).toBuf v = v := eq_of_heq (cast_heq _ _)
theorem ofBuf_main_call1_v10 (h1 : main_call1_v10.ty = (⟨S100000x40, .f32⟩ : BufTy)) (h2 : main_call1_v10.space ≠ .host) (h3 : main_call1_v10.isScoped = false)
    (v : (⟨S100000x40, .f32⟩ : BufTy).Contents (Elt F)) : (TRef.of (sig := sig) main_call1_v10 h1 h2 h3).ofBuf v = v := eq_of_heq (cast_heq _ _)
theorem toBuf_main_v48 (h1 : main_v48.ty = (⟨S100000x40, .f32⟩ : BufTy)) (h2 : main_v48.space ≠ .host) (h3 : main_v48.isScoped = false)
    (v : (⟨S100000x40, .f32⟩ : BufTy).Contents (Elt F)) : (TRef.of (sig := sig) main_v48 h1 h2 h3).toBuf v = v := eq_of_heq (cast_heq _ _)
theorem ofBuf_main_v48 (h1 : main_v48.ty = (⟨S100000x40, .f32⟩ : BufTy)) (h2 : main_v48.space ≠ .host) (h3 : main_v48.isScoped = false)
    (v : (⟨S100000x40, .f32⟩ : BufTy).Contents (Elt F)) : (TRef.of (sig := sig) main_v48 h1 h2 h3).ofBuf v = v := eq_of_heq (cast_heq _ _)

end Cert.ReferenceIdeal.Casts

end
-- ==== Proof.RefDense.lean ====
/-
  The reference's two dense products are the specification's row-by-column product.

  The reference multiplies the 100000 × 512 feature matrix by the 512 × 64 weight matrix, and later a
  100000 × 64 matrix by the 64 × 40 weight matrix, each as one product on the host.  Over the extended reals
  such a product's entry is the sum, over the index set of its one contracted axis, of the left operand's entry
  times the right operand's entry, the two entries named through the product's dimension numbers.  That index
  set is the numbers below the axis' extent, and at output entry i and contraction position k the entries named
  are (row of i, k) on the left and (k, column of i) on the right: so the whole array is
      (X W)(r, c) = Σ_k X(r, k) · W(k, c),
  which is how the specification writes the product.
-/
import proofs.«157696_j36283883717325_1_alg».proof.Proof.Gen.ReferenceIdeal
import proofs.«157696_j36283883717325_1_alg».proof.Proof.Spec
import Idealize.ShloMosaic.PureOps.Ideal.Laws
import Idealize.ShloMosaic.Lib.ValueIdx
import Idealize.ShloMosaic.Lib.Pipeline.Value

noncomputable section

namespace Cert.ReferenceIdeal.Dense

open Idealize.ShloMosaic Idealize.ShloMosaic.ValueIdx Cert.ReferenceIdeal
open scoped BigOperators

/-! ## The first product: 100000 × 512 times 512 × 64 -/

/-- The left operand's row is the output entry's row (axis 0 of the left operand is not contracted). -/
theorem lhs1_0 (i : S100000x64.Idx) (c : dot_S100000x512_S512x64_S100000x64_1_0_0_1_n_n.contr.Idx) :
    (dot_S100000x512_S512x64_S100000x64_1_0_0_1_n_n.lhsIdx i c 0).val = (i 0).val := by
  unfold DotDims.lhsIdx
  rw [dif_neg (show ¬(0 : Fin S100000x512.rank) ∈ dot_S100000x512_S512x64_S100000x64_1_0_0_1_n_n.lhsBatch by decide),
    dif_pos (show (0 : Fin S100000x512.rank) ∈ dot_S100000x512_S512x64_S100000x64_1_0_0_1_n_n.lhsNonContracting by decide)]
  rfl

/-- The left operand's column is the contraction position (axis 1 of the left operand is the contracted one). -/
theorem lhs1_1 (i : S100000x64.Idx) (c : dot_S100000x512_S512x64_S100000x64_1_0_0_1_n_n.contr.Idx) :
    (dot_S100000x512_S512x64_S100000x64_1_0_0_1_n_n.lhsIdx i c 1).val = (c ⟨0, by decide⟩).val :=
  dot_S100000x512_S512x64_S100000x64_1_0_0_1_n_n.lhsIdx_val_of_single rfl i c

/-- The right operand's row is the contraction position (axis 0 of the right operand is the contracted one). -/
theorem rhs1_0 (i : S100000x64.Idx) (c : dot_S100000x512_S512x64_S100000x64_1_0_0_1_n_n.contr.Idx) :
    (dot_S100000x512_S512x64_S100000x64_1_0_0_1_n_n.rhsIdx i c 0).val = (c ⟨0, by decide⟩).val :=
  dot_S100000x512_S512x64_S100000x64_1_0_0_1_n_n.rhsIdx_val_of_single rfl i c

/-- The right operand's column is the output entry's column (axis 1 of the right operand is not contracted). -/
theorem rhs1_1 (i : S100000x64.Idx) (c : dot_S100000x512_S512x64_S100000x64_1_0_0_1_n_n.contr.Idx) :
    (dot_S100000x512_S512x64_S100000x64_1_0_0_1_n_n.rhsIdx i c 1).val = (i 1).val := by
  unfold DotDims.rhsIdx
  rw [dif_neg (show ¬(1 : Fin S512x64.rank) ∈ dot_S100000x512_S512x64_S100000x64_1_0_0_1_n_n.rhsBatch by decide),
    dif_pos (show (1 : Fin S512x64.rank) ∈ dot_S100000x512_S512x64_S100000x64_1_0_0_1_n_n.rhsNonContracting by decide)]
  rfl

/-- The reference's first product, as a whole array, is the row-by-column product of its two operands. -/
theorem dot1_eq (X : FVec Ideal Cert.ReferenceIdeal.S100000x512 .f32) (W : FVec Ideal Cert.ReferenceIdeal.S512x64 .f32) :
    Host.dotGeneral (F := Ideal) Cert.ReferenceIdeal.dot_S100000x512_S512x64_S100000x64_1_0_0_1_n_n none X W = Cert.Gcn.matProd X W := by
  funext i
  show FloatOps.dotGeneral dot_S100000x512_S512x64_S100000x64_1_0_0_1_n_n none .single X W i
    = ∑ k : Fin 512, X (ix2 (Cert.Gcn.rowOf i) k) * W (ix2 k (Cert.Gcn.colOf i))
  refine (Ideal.dotGeneral_apply (φ₁ := .f32) (φ₂ := .f32) dot_S100000x512_S512x64_S100000x64_1_0_0_1_n_n none .single X W i).trans ?_
  rw [← Equiv.sum_comp (contrEquiv1 dot_S100000x512_S512x64_S100000x64_1_0_0_1_n_n 512 rfl rfl).symm]
  refine Finset.sum_congr rfl fun k _ => ?_
  have hk := contrEquiv1_symm_val dot_S100000x512_S512x64_S100000x64_1_0_0_1_n_n 512 rfl rfl k
  have el : dot_S100000x512_S512x64_S100000x64_1_0_0_1_n_n.lhsIdx i
      ((contrEquiv1 dot_S100000x512_S512x64_S100000x64_1_0_0_1_n_n 512 rfl rfl).symm k) = ix2 (Cert.Gcn.rowOf i) k :=
    funext fun a => Fin.ext (by
      match a with
      | ⟨0, _⟩ => exact lhs1_0 _ _
      | ⟨1, _⟩ => exact (lhs1_1 _ _).trans hk)
  have er : dot_S100000x512_S512x64_S100000x64_1_0_0_1_n_n.rhsIdx i
      ((contrEquiv1 dot_S100000x512_S512x64_S100000x64_1_0_0_1_n_n 512 rfl rfl).symm k) = ix2 k (Cert.Gcn.colOf i) :=
    funext fun a => Fin.ext (by
      match a with
      | ⟨0, _⟩ => exact (rhs1_0 _ _).trans hk
      | ⟨1, _⟩ => exact rhs1_1 _ _)
  rw [el, er]

/-! ## The second product: 100000 × 64 times 64 × 40 -/

/-- The left operand's row is the output entry's row (axis 0 of the left operand is not contracted). -/
theorem lhs2_0 (i : S100000x40.Idx) (c : dot_S100000x64_S64x40_S100000x40_1_0_0_1_n_n.contr.Idx) :
    (dot_S100000x64_S64x40_S100000x40_1_0_0_1_n_n.lhsIdx i c 0).val = (i 0).val := by
  unfold DotDims.lhsIdx
  rw [dif_neg (show ¬(0 : Fin S100000x64.rank) ∈ dot_S100000x64_S64x40_S100000x40_1_0_0_1_n_n.lhsBatch by decide),
    dif_pos (show (0 : Fin S100000x64.rank) ∈ dot_S100000x64_S64x40_S100000x40_1_0_0_1_n_n.lhsNonContracting by decide)]
  rfl

/-- The left operand's column is the contraction position (axis 1 of the left operand is the contracted one). -/
theorem lhs2_1 (i : S100000x40.Idx) (c : dot_S100000x64_S64x40_S100000x40_1_0_0_1_n_n.contr.Idx) :
    (dot_S100000x64_S64x40_S100000x40_1_0_0_1_n_n.lhsIdx i c 1).val = (c ⟨0, by decide⟩).val :=
  dot_S100000x64_S64x40_S100000x40_1_0_0_1_n_n.lhsIdx_val_of_single rfl i c

/-- The right operand's row is the contraction position (axis 0 of the right operand is the contracted one). -/
theorem rhs2_0 (i : S100000x40.Idx) (c : dot_S100000x64_S64x40_S100000x40_1_0_0_1_n_n.contr.Idx) :
    (dot_S100000x64_S64x40_S100000x40_1_0_0_1_n_n.rhsIdx i c 0).val = (c ⟨0, by decide⟩).val :=
  dot_S100000x64_S64x40_S100000x40_1_0_0_1_n_n.rhsIdx_val_of_single rfl i c

/-- The right operand's column is the output entry's column (axis 1 of the right operand is not contracted). -/
theorem rhs2_1 (i : S100000x40.Idx) (c : dot_S100000x64_S64x40_S100000x40_1_0_0_1_n_n.contr.Idx) :
    (dot_S100000x64_S64x40_S100000x40_1_0_0_1_n_n.rhsIdx i c 1).val = (i 1).val := by
  unfold DotDims.rhsIdx
  rw [dif_neg (show ¬(1 : Fin S64x40.rank) ∈ dot_S100000x64_S64x40_S100000x40_1_0_0_1_n_n.rhsBatch by decide),
    dif_pos (show (1 : Fin S64x40.rank) ∈ dot_S100000x64_S64x40_S100000x40_1_0_0_1_n_n.rhsNonContracting by decide)]
  rfl

/-- The reference's second product, as a whole array, is the row-by-column product of its two operands. -/
theorem dot2_eq (H : FVec Ideal Cert.ReferenceIdeal.S100000x64 .f32) (W : FVec Ideal Cert.ReferenceIdeal.S64x40 .f32) :
    Host.dotGeneral (F := Ideal) Cert.ReferenceIdeal.dot_S100000x64_S64x40_S100000x40_1_0_0_1_n_n none H W = Cert.Gcn.matProd H W := by
  funext i
  show FloatOps.dotGeneral dot_S100000x64_S64x40_S100000x40_1_0_0_1_n_n none .single H W i
    = ∑ k : Fin 64, H (ix2 (Cert.Gcn.rowOf i) k) * W (ix2 k (Cert.Gcn.colOf i))
  refine (Ideal.dotGeneral_apply (φ₁ := .f32) (φ₂ := .f32) dot_S100000x64_S64x40_S100000x40_1_0_0_1_n_n none .single H W i).trans ?_
  rw [← Equiv.sum_comp (contrEquiv1 dot_S100000x64_S64x40_S100000x40_1_0_0_1_n_n 64 rfl rfl).symm]
  refine Finset.sum_congr rfl fun k _ => ?_
  have hk := contrEquiv1_symm_val dot_S100000x64_S64x40_S100000x40_1_0_0_1_n_n 64 rfl rfl k
  have el : dot_S100000x64_S64x40_S100000x40_1_0_0_1_n_n.lhsIdx i
      ((contrEquiv1 dot_S100000x64_S64x40_S100000x40_1_0_0_1_n_n 64 rfl rfl).symm k) = ix2 (Cert.Gcn.rowOf i) k :=
    funext fun a => Fin.ext (by
      match a with
      | ⟨0, _⟩ => exact lhs2_0 _ _
      | ⟨1, _⟩ => exact (lhs2_1 _ _).trans hk)
  have er : dot_S100000x64_S64x40_S100000x40_1_0_0_1_n_n.rhsIdx i
      ((contrEquiv1 dot_S100000x64_S64x40_S100000x40_1_0_0_1_n_n 64 rfl rfl).symm k) = ix2 k (Cert.Gcn.colOf i) :=
    funext fun a => Fin.ext (by
      match a with
      | ⟨0, _⟩ => exact (rhs2_0 _ _).trans hk
      | ⟨1, _⟩ => exact rhs2_1 _ _)
  rw [el, er]

end Cert.ReferenceIdeal.Dense

end
-- ==== Proof.RefPointwise.lean ====
/-
  The reference's entry-by-entry stages are the specification's.

  The reference adds a bias vector to every row of a matrix in three steps: the vector of n entries is laid out
  as a matrix of one row, that row is repeated once per row of the matrix, and the two matrices are added entry
  by entry.  Read at an entry (r, c), the repeated row gives the one row's entry (0, c), which is the vector's
  entry c; so the sum at (r, c) is the matrix' entry plus the vector's entry c — the specification's `addRow`
  applied to the vector laid out as a row (`asRow`).

  Its relu is the entry-by-entry maximum with a matrix that holds one number everywhere, the number whose
  binary32 word is all zeros; that number is 0, so the result at an entry is the maximum of the entry and 0.
-/
import proofs.«157696_j36283883717325_1_alg».proof.Proof.Gen.ReferenceIdeal
import proofs.«157696_j36283883717325_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.Pointwise

open Idealize.ShloMosaic Idealize.ShloMosaic.ValueIdx Cert.ReferenceIdeal Cert.ReferenceIdeal.Gen

/-- Adding the 64-entry vector to every row, the way the reference does it (the vector laid out as one row,
    the row repeated 100000 times, the two matrices added entry by entry), is the specification's
    `addRow` of the vector laid out as a row: the entry added at (r, c) is the vector's entry c. -/
theorem bias64_eq (S : FVec Ideal S100000x64 .f32) (b : FVec Ideal S64 .f32) :
    addf S (broadcastInDim S100000x64 ![0, 1] bcast_S1x64_S100000x64_0_1 (broadcastInDim S1x64 ![1] bcast_S64_S1x64_1 b))
      = Cert.Gcn.addRow S (Cert.Gcn.asRow b) := by
  funext i
  show S i + broadcastInDim S100000x64 ![0, 1] bcast_S1x64_S100000x64_0_1
      (broadcastInDim S1x64 ![1] bcast_S64_S1x64_1 b) i = S i + b (ix1 (Cert.Gcn.colOf i))
  refine congrArg (S i + ·) ?_
  -- the repeated row at (r, c) is the one row at (0, c) …
  refine (broadcastInDim_apply _ bcast_S1x64_S100000x64_0_1 _ i (ix2 (0 : Fin 1) (Cert.Gcn.colOf i)) (fun a => ?_)).trans ?_
  · match a with
    | ⟨0, _⟩ => show 0 = if (1 : Nat) = 1 then 0 else (i 0).val; rw [if_pos rfl]
    | ⟨1, _⟩ => show (i 1).val = if (64 : Nat) = 1 then 0 else (i 1).val; rw [if_neg (by decide)]
  -- … and the one row at (0, c) is the vector at c.
  · exact broadcastInDim_apply _ bcast_S64_S1x64_1 b _ (ix1 (Cert.Gcn.colOf i)) (fun a => match a with
      | ⟨0, _⟩ => by show (i 1).val = if (64 : Nat) = 1 then 0 else (i 1).val; rw [if_neg (by decide)])

/-- Adding the 40-entry vector to every row, the way the reference does it (the vector laid out as one row,
    the row repeated 100000 times, the two matrices added entry by entry), is the specification's
    `addRow` of the vector laid out as a row: the entry added at (r, c) is the vector's entry c. -/
theorem bias40_eq (S : FVec Ideal S100000x40 .f32) (b : FVec Ideal S40 .f32) :
    addf S (broadcastInDim S100000x40 ![0, 1] bcast_S1x40_S100000x40_0_1 (broadcastInDim S1x40 ![1] bcast_S40_S1x40_1 b))
      = Cert.Gcn.addRow S (Cert.Gcn.asRow b) := by
  funext i
  show S i + broadcastInDim S100000x40 ![0, 1] bcast_S1x40_S100000x40_0_1
      (broadcastInDim S1x40 ![1] bcast_S40_S1x40_1 b) i = S i + b (ix1 (Cert.Gcn.colOf i))
  refine congrArg (S i + ·) ?_
  -- the repeated row at (r, c) is the one row at (0, c) …
  refine (broadcastInDim_apply _ bcast_S1x40_S100000x40_0_1 _ i (ix2 (0 : Fin 1) (Cert.Gcn.colOf i)) (fun a => ?_)).trans ?_
  · match a with
    | ⟨0, _⟩ => show 0 = if (1 : Nat) = 1 then 0 else (i 0).val; rw [if_pos rfl]
    | ⟨1, _⟩ => show (i 1).val = if (40 : Nat) = 1 then 0 else (i 1).val; rw [if_neg (by decide)]
  -- … and the one row at (0, c) is the vector at c.
  · exact broadcastInDim_apply _ bcast_S40_S1x40_1 b _ (ix1 (Cert.Gcn.colOf i)) (fun a => match a with
      | ⟨0, _⟩ => by show (i 1).val = if (40 : Nat) = 1 then 0 else (i 1).val; rw [if_neg (by decide)])

/-- The reference's relu — the maximum, entry by entry, with the matrix that is the zero word's number
    everywhere — is the specification's `relu`: that number is 0. -/
theorem relu_eq (A : FVec Ideal S100000x64 .f32) :
    maximumf A (broadcastInDim S100000x64 ![] bcast_S_S100000x64 (constant (F := Ideal) S_ .f32 0x00000000#32)) = Cert.Gcn.relu A := by
  funext i
  show max (A i) (broadcastInDim S100000x64 ![] bcast_S_S100000x64 (constant (F := Ideal) S_ .f32 0x00000000#32) i)
    = max (A i) 0
  refine congrArg (max (A i)) ?_
  refine (broadcastInDim_apply _ bcast_S_S100000x64 _ i (fun a => a.elim0) (fun a => a.elim0)).trans ?_
  exact Ideal.ofBits_zero_f32

end Cert.ReferenceIdeal.Pointwise

end
-- ==== Proof.RefSparse.lean ====
/-
  The reference's three sparse products are the specification's.

  Each sparse product is one composite of host operations: the edge list's column numbers (a negative number
  counted from the end of the 100000 rows) select whole rows of the dense operand, each selected row is scaled
  by its edge's weight, and the scaled rows are accumulated into a zero matrix at the edge list's row numbers.
  The specification writes this composite down once, with the dimension numbers of the lookup and of the
  accumulation taken from the kernel program's text; the reference's text carries dimension numbers of its own
  for the same two operations.  The two sets of dimension numbers are the same small records — the same axis
  lists and slice sizes —, and the shapes are the same literals, so the reference's composite IS the
  specification's, operand for operand.  Nothing is computed: the operands stay variables and neither the
  lookup nor the accumulation is ever opened.
-/
import proofs.«157696_j36283883717325_1_alg».proof.Proof.Gen.ReferenceIdeal
import proofs.«157696_j36283883717325_1_alg».proof.Proof.Spec

noncomputable section

namespace Cert.ReferenceIdeal.Sparse

open Idealize.ShloMosaic Cert.ReferenceIdeal Cert.ReferenceIdeal.Gen

/-! ## The dimension numbers agree -/

/-- The two programs' dimension numbers for the accumulation of 1600000 rows of 64 entries into a 100000 × 64 matrix are the same record. -/
theorem scatter64_rec : Cert.ReferenceIdeal.scatter_S100000x64_S1600000x1_S1600000x64_1_0_0_1 = Cert.KernelIdeal.scatter_S100000x64_S1600000x1_S1600000x64_1_0_0_1 := rfl

/-- The two programs' dimension numbers for the lookup of 1600000 whole rows in a 100000 × 64 matrix are the same record. -/
theorem gather64_rec : Cert.ReferenceIdeal.gather_S100000x64_S1600000x1_S1600000x64_1_0_n_n_0_1_164 = Cert.KernelIdeal.gather_S100000x64_S1600000x1_S1600000x64_1_0_n_n_0_1_164 := rfl

/-- The two programs' dimension numbers for the accumulation of 1600000 rows of 40 entries into a 100000 × 40 matrix are the same record. -/
theorem scatter40_rec : Cert.ReferenceIdeal.scatter_S100000x40_S1600000x1_S1600000x40_1_0_0_1 = Cert.KernelIdeal.scatter_S100000x40_S1600000x1_S1600000x40_1_0_0_1 := rfl

/-- The two programs' dimension numbers for the lookup of 1600000 whole rows in a 100000 × 40 matrix are the same record. -/
theorem gather40_rec : Cert.ReferenceIdeal.gather_S100000x40_S1600000x1_S1600000x40_1_0_n_n_0_1_140 = Cert.KernelIdeal.gather_S100000x40_S1600000x1_S1600000x40_1_0_n_n_0_1_140 := rfl

/-- The two programs' dimension numbers for the accumulation of 200000 rows of 40 entries into a 100000 × 40 matrix are the same record. -/
theorem scatterP_rec : Cert.ReferenceIdeal.scatter_S100000x40_S200000x1_S200000x40_1_0_0_1 = Cert.KernelIdeal.scatter_S100000x40_S200000x1_S200000x40_1_0_0_1 := rfl

/-- The two programs' dimension numbers for the lookup of 200000 whole rows in a 100000 × 40 matrix are the same record. -/
theorem gatherP_rec : Cert.ReferenceIdeal.gather_S100000x40_S200000x1_S200000x40_1_0_n_n_0_1_140 = Cert.KernelIdeal.gather_S100000x40_S200000x1_S200000x40_1_0_n_n_0_1_140 := rfl

/-! ## The composites agree -/

set_option maxHeartbeats 400000 in
/-- The reference's sparse product of the first edge list with a matrix of 64 columns. -/
theorem spmm64_eq (rowN colN : IVec S1600000 32) (w : FVec Ideal S1600000 .f32) (D : FVec Ideal S100000x64 .f32) :
    Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 rowN)
      (mulf (broadcastInDim S1600000x64 ![0, 1] bcast_S1600000x1_S1600000x64_0_1 (broadcastInDim S1600000x1 ![0] bcast_S1600000_S1600000x1_0 w))
        (Host.gather gather_S100000x64_S1600000x1_S1600000x64_1_0_n_n_0_1_164 D
          (broadcastInDim S1600000x1 ![0] bcast_S1600000_S1600000x1_0
            (select (cmpi .slt colN (broadcastInDim S1600000 ![] bcast_S_S1600000 (constantI S_ 32 0#32)))
              (addi colN (broadcastInDim S1600000 ![] bcast_S_S1600000 (constantI S_ 32 100000#32))) colN))))
      = Cert.Gcn.spmm64 rowN colN w D := rfl

set_option maxHeartbeats 400000 in
/-- The reference's sparse product of the first edge list with a matrix of 40 columns. -/
theorem spmm40_eq (rowN colN : IVec S1600000 32) (w : FVec Ideal S1600000 .f32) (D : FVec Ideal S100000x40 .f32) :
    Host.scatterAdd (F := Ideal) scatter_S100000x40_S1600000x1_S1600000x40_1_0_0_1
      (broadcastInDim S100000x40 ![] bcast_S_S100000x40 (constant (F := Ideal) S_ .f32 0x00000000#32))
      (broadcastInDim S1600000x1 ![0] bcast_S1600000_S1600000x1_0 rowN)
      (mulf (broadcastInDim S1600000x40 ![0, 1] bcast_S1600000x1_S1600000x40_0_1 (broadcastInDim S1600000x1 ![0] bcast_S1600000_S1600000x1_0 w))
        (Host.gather gather_S100000x40_S1600000x1_S1600000x40_1_0_n_n_0_1_140 D
          (broadcastInDim S1600000x1 ![0] bcast_S1600000_S1600000x1_0
            (select (cmpi .slt colN (broadcastInDim S1600000 ![] bcast_S_S1600000 (constantI S_ 32 0#32)))
              (addi colN (broadcastInDim S1600000 ![] bcast_S_S1600000 (constantI S_ 32 100000#32))) colN))))
      = Cert.Gcn.spmm40 rowN colN w D := rfl

set_option maxHeartbeats 400000 in
/-- The reference's sparse product of the second, shorter edge list with a matrix of 40 columns. -/
theorem spmmP_eq (rowN colN : IVec S200000 32) (w : FVec Ideal S200000 .f32) (D : FVec Ideal S100000x40 .f32) :
    Host.scatterAdd (F := Ideal) scatter_S100000x40_S200000x1_S200000x40_1_0_0_1
      (broadcastInDim S100000x40 ![] bcast_S_S100000x40 (constant (F := Ideal) S_ .f32 0x00000000#32))
      (broadcastInDim S200000x1 ![0] bcast_S200000_S200000x1_0 rowN)
      (mulf (broadcastInDim S200000x40 ![0, 1] bcast_S200000x1_S200000x40_0_1 (broadcastInDim S200000x1 ![0] bcast_S200000_S200000x1_0 w))
        (Host.gather gather_S100000x40_S200000x1_S200000x40_1_0_n_n_0_1_140 D
          (broadcastInDim S200000x1 ![0] bcast_S200000_S200000x1_0
            (select (cmpi .slt colN (broadcastInDim S200000 ![] bcast_S_S200000 (constantI S_ 32 0#32)))
              (addi colN (broadcastInDim S200000 ![] bcast_S_S200000 (constantI S_ 32 100000#32))) colN))))
      = Cert.Gcn.spmmP rowN colN w D := rfl

end Cert.ReferenceIdeal.Sparse

end
-- ==== Proof.RefSoftmax.lean ====
/-
  The reference's row-wise log-softmax, as one composite of its host operations, is the specification's.

  The reference computes, of a matrix O of 100000 rows and 40 columns: each row's largest entry (a reduction along
  the row with a `max` body from minus infinity, followed by one more `max` with minus infinity, which changes
  nothing), kept as a matrix of one column and spread back over the 40 columns; the shifted entries; their
  exponentials; each row's sum (a reduction along the row with a `+` body from zero); its logarithm, spread back
  in the same way; and the difference. Over the extended reals the value at entry (p, q) is

      (O(p, q) − M_p) − log (Σ_j exp (O(p, j) − M_p)),      M_p = max_j O(p, j),

  which is the specification's `logSoftmax O` at (p, q). The composite is written once, as plain nested
  applications, every operation spelt as the reference's program spells it; the two broadcasts and the two
  reductions are read at an index first, and the equation is then a composition of those readings.
-/
import proofs.«157696_j36283883717325_1_alg».proof.Proof.Gen.ReferenceIdeal
import proofs.«157696_j36283883717325_1_alg».proof.Proof.Spec
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.ReferenceIdeal.Softmax

open Idealize.ShloMosaic Idealize.ShloMosaic.ValueIdx Cert.ReferenceIdeal Cert.ReferenceIdeal.Gen Cert.Gcn
open scoped BigOperators

/-- The reference's row-wise log-softmax of `O`, operation by operation. -/
def refLogSoftmax (O : FVec Ideal S100000x40 .f32) : FVec Ideal S100000x40 .f32 :=
  subf
    (subf O (broadcastInDim S100000x40 ![0, 1] bcast_S100000x1_S100000x40_0_1
      (broadcastInDim S100000x1 ![0] bcast_S100000_S100000x1_0
        (maximumf (broadcastInDim S100000 ![] bcast_S_S100000 (constant (F := Ideal) S_ .f32 0xFF800000#32))
          (Host.reduce FloatOps.maximumf O (constant (F := Ideal) S_ .f32 0xFF800000#32)
            reducesTo_S100000x40_S100000_d1 h_S_)))))
    (broadcastInDim S100000x40 ![0, 1] bcast_S100000x1_S100000x40_0_1
      (Host.log (broadcastInDim S100000x1 ![0] bcast_S100000_S100000x1_0
        (Host.reduceAdd
          (Host.exp (subf O (broadcastInDim S100000x40 ![0, 1] bcast_S100000x1_S100000x40_0_1
            (broadcastInDim S100000x1 ![0] bcast_S100000_S100000x1_0
              (maximumf (broadcastInDim S100000 ![] bcast_S_S100000 (constant (F := Ideal) S_ .f32 0xFF800000#32))
                (Host.reduce FloatOps.maximumf O (constant (F := Ideal) S_ .f32 0xFF800000#32)
                  reducesTo_S100000x40_S100000_d1 h_S_))))))
          (constant (F := Ideal) S_ .f32 0x00000000#32) reducesTo_S100000x40_S100000_d1 h_S_))))

section Layout
variable {α : Type}

/-- A vector of one entry per row broadcast to a matrix of one column reads, at `(p, u)`, the entry of row `p`. -/
theorem bcastVec_apply (w : S100000.Idx → α) (p : Fin 100000) (u : Fin 1) :
    broadcastInDim S100000x1 ![0] bcast_S100000_S100000x1_0 w (ix2 p u) = w (ix1 p) :=
  broadcastInDim_apply _ bcast_S100000_S100000x1_0 w (ix2 p u) (ix1 p) fun a => match a with
    | ⟨0, _⟩ => by show p.val = if (100000 : Nat) = 1 then 0 else p.val; rw [if_neg (by decide)]

/-- A matrix of one column broadcast over the 40 columns reads, at `(p, q)`, the column's entry in row `p`. -/
theorem bcastCol_apply (v : S100000x1.Idx → α) (p : Fin 100000) (q : Fin 40) :
    broadcastInDim S100000x40 ![0, 1] bcast_S100000x1_S100000x40_0_1 v (ix2 p q) = v (ix2 p (0 : Fin 1)) :=
  broadcastInDim_apply _ bcast_S100000x1_S100000x40_0_1 v (ix2 p q) (ix2 p (0 : Fin 1)) fun a => match a with
    | ⟨0, _⟩ => by show p.val = if (100000 : Nat) = 1 then 0 else p.val; rw [if_neg (by decide)]
    | ⟨1, _⟩ => by show 0 = if (1 : Nat) = 1 then 0 else q.val; rw [if_pos rfl]

end Layout

/-- The f32 pattern `0xFF800000` is minus infinity, the bottom of the extended reals. -/
theorem negInf_f32 : Ideal.ofBits .f32 0xFF800000#32 = ⊥ := by
  simp [Ideal.ofBits, Ideal.ieee]

/-- The index of row `p` with column `j` put back on the reduced axis is `(p, j)`. -/
theorem lift_row (h : S100000x40.Reduces [1] S100000) (p : Fin 100000) (j : Fin 40) :
    h.lift (ix1 p) j = ix2 p j := by
  funext c
  match c with
  | ⟨0, _⟩ => exact Fin.ext rfl
  | ⟨1, _⟩ => exact Fin.ext rfl

/-! ## The two host reductions read at a row -/

/-- The reference's row maximum: the host reduction with a `max` body from minus infinity, then one more `max` with
    minus infinity, is the row's largest entry. -/
theorem refRowMax_read (O : FVec Ideal S100000x40 .f32) (p : Fin 100000) :
    maximumf (broadcastInDim S100000 ![] bcast_S_S100000 (constant (F := Ideal) S_ .f32 0xFF800000#32))
        (Host.reduce FloatOps.maximumf O (constant (F := Ideal) S_ .f32 0xFF800000#32)
          reducesTo_S100000x40_S100000_d1 h_S_) (ix1 p)
      = rowMax O p := by
  have h : S100000x40.Reduces [1] S100000 := by decide
  have hc : constant (F := Ideal) S_ .f32 0xFF800000#32 (Shape.Idx.first h_S_) = ⊥ := negInf_f32
  have hb : broadcastInDim S100000 ![] bcast_S_S100000 (constant (F := Ideal) S_ .f32 0xFF800000#32) (ix1 p) = ⊥ :=
    (broadcastInDim_apply _ bcast_S_S100000 _ (ix1 p) (fun a => a.elim0) (fun a => a.elim0)).trans negInf_f32
  refine (maximumf_apply _ _ (ix1 p)).trans ?_
  rw [Host.reduce_eq_fold_single FloatOps.maximumf O _ reducesTo_S100000x40_S100000_d1 h h_S_ (ix1 p)]
  rw [hb, hc, max_eq_right bot_le]
  unfold rowMax
  exact congrArg (fun f => (Finset.univ : Finset (Fin 40)).fold max ⊥ f)
    (funext fun j => congrArg O (lift_row h p j))

/-- The reference's row sum: the host reduction with a `+` body from zero is the sum of the row's entries. -/
theorem refRowSum_read (y : FVec Ideal S100000x40 .f32) (p : Fin 100000) :
    Host.reduceAdd y (constant (F := Ideal) S_ .f32 0x00000000#32) reducesTo_S100000x40_S100000_d1 h_S_ (ix1 p)
      = ∑ j : Fin 40, y (ix2 p j) := by
  have h : S100000x40.Reduces [1] S100000 := by decide
  have hc : constant (F := Ideal) S_ .f32 0x00000000#32 (Shape.Idx.first h_S_) = 0 := Ideal.ofBits_zero_f32
  refine (Ideal.hostReduceAdd_single reducesTo_S100000x40_S100000_d1 h y _ (ix1 p)).trans ?_
  rw [hc, zero_add]
  exact Finset.sum_congr rfl fun j _ => congrArg y (lift_row h p j)

/-! ## The composite at an entry -/

/-- The host's exponential at an index is the exponential of the entry. -/
theorem hostExp_apply {s : Shape} (v : FVec Ideal s .f32) (i : s.Idx) : Host.exp v i = Ideal.exp (v i) := rfl
/-- The host's logarithm at an index is the logarithm of the entry. -/
theorem hostLog_apply {s : Shape} (v : FVec Ideal s .f32) (i : s.Idx) : Host.log v i = Ideal.log (v i) := rfl

/-- An entry less its row's largest entry, as the reference spells it: the shifted entry at `(p, j)`. -/
theorem refShifted_apply (O : FVec Ideal S100000x40 .f32) (p : Fin 100000) (j : Fin 40) :
    subf O (broadcastInDim S100000x40 ![0, 1] bcast_S100000x1_S100000x40_0_1
      (broadcastInDim S100000x1 ![0] bcast_S100000_S100000x1_0
        (maximumf (broadcastInDim S100000 ![] bcast_S_S100000 (constant (F := Ideal) S_ .f32 0xFF800000#32))
          (Host.reduce FloatOps.maximumf O (constant (F := Ideal) S_ .f32 0xFF800000#32)
            reducesTo_S100000x40_S100000_d1 h_S_)))) (ix2 p j)
      = O (ix2 p j) - rowMax O p :=
  congrArg (fun m => O (ix2 p j) - m)
    (((bcastCol_apply _ p j).trans (bcastVec_apply _ p 0)).trans (refRowMax_read O p))

/-- The reference's composite is the row-wise log-softmax of the specification. -/
theorem refLogSoftmax_eq (O : FVec Ideal S100000x40 .f32) : refLogSoftmax O = Cert.Gcn.logSoftmax O := by
  funext i
  obtain ⟨p, q, rfl⟩ : ∃ (p : Fin 100000) (q : Fin 40), i = ix2 p q := ⟨i 0, i 1, eq_ix2 i⟩
  show refLogSoftmax O (ix2 p q)
    = (O (ix2 p q) - rowMax O p) - Ideal.log (∑ j : Fin 40, Ideal.exp (O (ix2 p j) - rowMax O p))
  unfold refLogSoftmax
  refine congrArg₂ (fun a b : EReal => a - b) (refShifted_apply O p q) ?_
  refine (bcastCol_apply _ p q).trans ((hostLog_apply _ _).trans (congrArg Ideal.log ?_))
  refine (bcastVec_apply _ p 0).trans ?_
  refine (refRowSum_read _ p).trans ?_
  exact Finset.sum_congr rfl fun j _ => (hostExp_apply _ _).trans (congrArg Ideal.exp (refShifted_apply O p j))

end Cert.ReferenceIdeal.Softmax

end
-- ==== Proof.RefValue.lean ====
/-
  The idealized reference's result as one function of its arguments.

  The reference is a straight line of host operations; its result buffer ends holding the fold of those
  operations read at that buffer.  Read outermost first, the fold is a nest of the operations' functions
  applied to the argument arrays.  It is rewritten here one stage at a time, innermost first, into the
  specification's vocabulary: each host matrix product is the row-by-column product; each sparse product,
  spelt with the reference's own dimension records, is the named composite; a bias broadcast twice and added
  is `addRow`; the maximum with a splat zero is `relu`; and the thirteen operations of the inlined
  log-softmax are `logSoftmax`.  What is left is `network` of the eleven arguments, by definition.
-/
import proofs.«157696_j36283883717325_1_alg».proof.Proof.RefRunPatched
import proofs.«157696_j36283883717325_1_alg».proof.Proof.RefCasts
import proofs.«157696_j36283883717325_1_alg».proof.Proof.RefDense
import proofs.«157696_j36283883717325_1_alg».proof.Proof.RefPointwise
import proofs.«157696_j36283883717325_1_alg».proof.Proof.RefSparse
import proofs.«157696_j36283883717325_1_alg».proof.Proof.RefSoftmax
import proofs.«157696_j36283883717325_1_alg».proof.Proof.Spec

noncomputable section

namespace Cert.ReferenceIdeal.Whole

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ) (c : Dev nD)

/-- The thirteen operations of the row-wise log-softmax, as the run spells them, are the named composite. -/
theorem logSoftmax_fold (O : FVec Ideal S100000x40 .f32) :
    subf (subf O (broadcastInDim S100000x40 ![0, 1] bcast_S100000x1_S100000x40_0_1 (broadcastInDim S100000x1 ![0] bcast_S100000_S100000x1_0
        (maximumf (broadcastInDim S100000 ![] bcast_S_S100000 (constant (F := Ideal) S_ .f32 0xFF800000#32))
          (Host.reduce FloatOps.maximumf O (constant (F := Ideal) S_ .f32 0xFF800000#32) reducesTo_S100000x40_S100000_d1 h_S_)))))
      (broadcastInDim S100000x40 ![0, 1] bcast_S100000x1_S100000x40_0_1 (Host.log (broadcastInDim S100000x1 ![0] bcast_S100000_S100000x1_0
        (Host.reduceAdd (Host.exp (subf O (broadcastInDim S100000x40 ![0, 1] bcast_S100000x1_S100000x40_0_1 (broadcastInDim S100000x1 ![0] bcast_S100000_S100000x1_0
            (maximumf (broadcastInDim S100000 ![] bcast_S_S100000 (constant (F := Ideal) S_ .f32 0xFF800000#32))
              (Host.reduce FloatOps.maximumf O (constant (F := Ideal) S_ .f32 0xFF800000#32) reducesTo_S100000x40_S100000_d1 h_S_))))))
          (constant (F := Ideal) S_ .f32 0x00000000#32) reducesTo_S100000x40_S100000_d1 h_S_))))
      = Softmax.refLogSoftmax O := rfl

set_option maxRecDepth 8192 in
set_option maxHeartbeats 4000000 in
/-- The fold of the reference's operations, read at the result buffer, is the nest of the operations' functions
    applied to the argument arrays (for any float values): each operation's result read where it is written, the
    two called functions' typed buffers passed through. -/
theorem fold_eq {F : FTy → Type} [FloatOps F] (m : (ℓ : Loc nD τ sig) → Buf (Elt F) ℓ) (c : Dev nD) :
    after (ValueP.ops (F := F)) (launchContents m c) (Proc.devRef .tc main_v48) = ValueP.res_main_v48 m c := by
  after_results_simp
  simp only [Casts.toBuf_main_call0_cst, Casts.ofBuf_main_call0_cst, Casts.toBuf_main_call0_v0, Casts.ofBuf_main_call0_v0, Casts.toBuf_main_v16, Casts.ofBuf_main_v16, Casts.toBuf_main_v17, Casts.ofBuf_main_v17, Casts.toBuf_main_v47, Casts.ofBuf_main_v47, Casts.toBuf_main_call1_cst, Casts.ofBuf_main_call1_cst, Casts.toBuf_main_call1_v0, Casts.ofBuf_main_call1_v0, Casts.toBuf_main_call1_cst_0, Casts.ofBuf_main_call1_cst_0, Casts.toBuf_main_call1_v1, Casts.ofBuf_main_call1_v1, Casts.toBuf_main_call1_v2, Casts.ofBuf_main_call1_v2, Casts.toBuf_main_call1_v3, Casts.ofBuf_main_call1_v3, Casts.toBuf_main_call1_v4, Casts.ofBuf_main_call1_v4, Casts.toBuf_main_call1_v5, Casts.ofBuf_main_call1_v5, Casts.toBuf_main_call1_v6, Casts.ofBuf_main_call1_v6, Casts.toBuf_main_call1_cst_1, Casts.ofBuf_main_call1_cst_1, Casts.toBuf_main_call1_v7, Casts.ofBuf_main_call1_v7, Casts.toBuf_main_call1_v8, Casts.ofBuf_main_call1_v8, Casts.toBuf_main_call1_v9, Casts.ofBuf_main_call1_v9, Casts.toBuf_main_call1_v10, Casts.ofBuf_main_call1_v10, Casts.toBuf_main_v48, Casts.ofBuf_main_v48]
  unfold ValueP.res_main_v48
  rfl

set_option maxRecDepth 8192 in
set_option maxHeartbeats 4000000 in
/-- THE RESULT BUFFER when the reference returns: `network` of the eleven argument arrays. -/
theorem result : after (ValueP.ops (F := Ideal)) (launchContents m c) (Proc.devRef .tc main_v48)
    = Cert.Gcn.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [fold_eq]
  unfold ValueP.res_main_v48
  rw [Dense.dot1_eq, Sparse.spmm64_eq, Pointwise.bias64_eq, Pointwise.relu_eq, Dense.dot2_eq, Sparse.spmm40_eq,
    Pointwise.bias40_eq, Sparse.spmmP_eq, logSoftmax_fold, Softmax.refLogSoftmax_eq]
  rfl

end Cert.ReferenceIdeal.Whole

end
-- ==== Proof.lean ====
/-
  The certificate: a two-layer graph convolution with a final sparse product and a row-wise log-softmax, as
  five pipelined kernels among host operations, against the same computation as plain host operations.

  The three frame claims are the generated frames (the reference's is its run with the result dropped).  The
  idealization rewrote nothing, so `preserves` is trivial.  The value claim: at the ideal values both
  programs end with their result array holding ONE function of the eleven arguments, `Cert.Gcn.network`
  (Proof/Spec.lean) — the kernel program because each of its five kernels leaves a whole-array function of
  what it found (a matrix product computed block of rows by block of rows is the matrix product; a bias, a
  maximum with zero and a row-wise log-softmax act row by row, and every row lies in one block) and the host
  computes the three sparse products between them (Proof/KernelChain.lean); the reference because its host
  operations are those same functions spelt differently (Proof/RefValue.lean).  No law of the extended reals
  beyond the definitions is used, so the precondition is never opened.
-/
import proofs.«157696_j36283883717325_1_alg».proof.Defs
import proofs.«157696_j36283883717325_1_alg».proof.Proof.Gen.Kernel
import proofs.«157696_j36283883717325_1_alg».proof.Proof.Gen.Kernel.Frame
import proofs.«157696_j36283883717325_1_alg».proof.Proof.Gen.KernelIdeal
import proofs.«157696_j36283883717325_1_alg».proof.Proof.Gen.KernelIdeal.Frame
import proofs.«157696_j36283883717325_1_alg».proof.Proof.Gen.ReferenceIdeal
import proofs.«157696_j36283883717325_1_alg».proof.Proof.Gen.Pre_finite_inputs
import proofs.«157696_j36283883717325_1_alg».proof.Proof.KernelRun
import proofs.«157696_j36283883717325_1_alg».proof.Proof.KernelChain
import proofs.«157696_j36283883717325_1_alg».proof.Proof.RefRunPatched
import proofs.«157696_j36283883717325_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with `network` of the arguments in their result array; the arguments agree. -/
theorem algebraic : Cert.algebraic_KernelIdeal_ReferenceIdeal := by
  intro m ρ m' ρ' _ hagree
  refine ⟨fun c => Cert.Gcn.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Chain.result m ρ c), (h c).2⟩)
      (Cert.KernelIdeal.Whole.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.Whole.result m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
